-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S2x4000000 : Shape := ⟨2, ![2, 4000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S2x4000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S2x4000000 : Shape := ⟨2, ![2, 4000000]⟩
abbrev S1x4000000 : Shape := ⟨2, ![1, 4000000]⟩
abbrev S_ : Shape := ⟨0, ![]⟩
abbrev S4005888 : Shape := ⟨1, ![4005888]⟩
abbrev S150000x64 : Shape := ⟨2, ![150000, 64]⟩
abbrev S64x150000 : Shape := ⟨2, ![64, 150000]⟩
abbrev S4000000x1 : Shape := ⟨2, ![4000000, 1]⟩
abbrev S64x4000000 : Shape := ⟨2, ![64, 4000000]⟩
abbrev S64x4005888 : Shape := ⟨2, ![64, 4005888]⟩
abbrev S64x24576 : Shape := ⟨2, ![64, 24576]⟩
abbrev S24576 : Shape := ⟨1, ![24576]⟩
abbrev S1x24576 : Shape := ⟨2, ![1, 24576]⟩

abbrev nBuf : Space → Nat
  | .hbm => 97
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S2x4000000, .i32⟩
  | .hbm, ⟨4, _⟩ => ⟨S1x4000000, .i32⟩
  | .hbm, ⟨5, _⟩ => ⟨S4000000, .i32⟩
  | .hbm, ⟨6, _⟩ => ⟨S1x4000000, .i32⟩
  | .hbm, ⟨7, _⟩ => ⟨S4000000, .i32⟩
  | .hbm, ⟨8, _⟩ => ⟨S_, .i32⟩
  | .hbm, ⟨9, _⟩ => ⟨S_, .f32⟩
  | .hbm, ⟨10, _⟩ => ⟨S4005888, .f32⟩
  | .hbm, ⟨11, _⟩ => ⟨S150000x64, .f32⟩
  | .hbm, ⟨12, _⟩ => ⟨S64x150000, .f32⟩
  | .hbm, ⟨13, _⟩ => ⟨S_, .i32⟩
  | .hbm, ⟨14, _⟩ => ⟨S4000000, .i32⟩
  | .hbm, ⟨15, _⟩ => ⟨S4000000, .i1⟩
  | .hbm, ⟨16, _⟩ => ⟨S_, .i32⟩
  | .hbm, ⟨17, _⟩ => ⟨S4000000, .i32⟩
  | .hbm, ⟨18, _⟩ => ⟨S4000000, .i32⟩
  | .hbm, ⟨19, _⟩ => ⟨S4000000, .i32⟩
  | .hbm, ⟨20, _⟩ => ⟨S4000000x1, .i32⟩
  | .hbm, ⟨21, _⟩ => ⟨S64x4000000, .f32⟩
  | .hbm, ⟨22, _⟩ => ⟨S_, .i32⟩
  | .hbm, ⟨23, _⟩ => ⟨S_, .f32⟩
  | .hbm, ⟨24, _⟩ => ⟨S64x4005888, .f32⟩
  | .hbm, ⟨25, _⟩ => ⟨S64x4005888, .f32⟩
  | .hbm, ⟨26, _⟩ => ⟨S64x4000000, .f32⟩
  | .hbm, ⟨27, _⟩ => ⟨S_, .f32⟩
  | .hbm, ⟨28, _⟩ => ⟨S64x150000, .f32⟩
  | .hbm, ⟨29, _⟩ => ⟨S_, .i32⟩
  | .hbm, ⟨30, _⟩ => ⟨S4000000, .i32⟩
  | .hbm, ⟨31, _⟩ => ⟨S4000000, .i1⟩
  | .hbm, ⟨32, _⟩ => ⟨S_, .i32⟩
  | .hbm, ⟨33, _⟩ => ⟨S4000000, .i32⟩
  | .hbm, ⟨34, _⟩ => ⟨S4000000, .i32⟩
  | .hbm, ⟨35, _⟩ => ⟨S4000000, .i32⟩
  | .hbm, ⟨36, _⟩ => ⟨S4000000x1, .i32⟩
  | .hbm, ⟨37, _⟩ => ⟨S64x150000, .f32⟩
  | .hbm, ⟨38, _⟩ => ⟨S64x150000, .f32⟩
  | .hbm, ⟨39, _⟩ => ⟨S_, .i32⟩
  | .hbm, ⟨40, _⟩ => ⟨S4000000, .i32⟩
  | .hbm, ⟨41, _⟩ => ⟨S4000000, .i1⟩
  | .hbm, ⟨42, _⟩ => ⟨S_, .i32⟩
  | .hbm, ⟨43, _⟩ => ⟨S4000000, .i32⟩
  | .hbm, ⟨44, _⟩ => ⟨S4000000, .i32⟩
  | .hbm, ⟨45, _⟩ => ⟨S4000000, .i32⟩
  | .hbm, ⟨46, _⟩ => ⟨S4000000x1, .i32⟩
  | .hbm, ⟨47, _⟩ => ⟨S64x4000000, .f32⟩
  | .hbm, ⟨48, _⟩ => ⟨S_, .i32⟩
  | .hbm, ⟨49, _⟩ => ⟨S_, .f32⟩
  | .hbm, ⟨50, _⟩ => ⟨S64x4005888, .f32⟩
  | .hbm, ⟨51, _⟩ => ⟨S64x4005888, .f32⟩
  | .hbm, ⟨52, _⟩ => ⟨S64x4000000, .f32⟩
  | .hbm, ⟨53, _⟩ => ⟨S_, .f32⟩
  | .hbm, ⟨54, _⟩ => ⟨S64x150000, .f32⟩
  | .hbm, ⟨55, _⟩ => ⟨S_, .i32⟩
  | .hbm, ⟨56, _⟩ => ⟨S4000000, .i32⟩
  | .hbm, ⟨57, _⟩ => ⟨S4000000, .i1⟩
  | .hbm, ⟨58, _⟩ => ⟨S_, .i32⟩
  | .hbm, ⟨59, _⟩ => ⟨S4000000, .i32⟩
  | .hbm, ⟨60, _⟩ => ⟨S4000000, .i32⟩
  | .hbm, ⟨61, _⟩ => ⟨S4000000, .i32⟩
  | .hbm, ⟨62, _⟩ => ⟨S4000000x1, .i32⟩
  | .hbm, ⟨63, _⟩ => ⟨S64x150000, .f32⟩
  | .hbm, ⟨64, _⟩ => ⟨S64x150000, .f32⟩
  | .hbm, ⟨65, _⟩ => ⟨S_, .i32⟩
  | .hbm, ⟨66, _⟩ => ⟨S4000000, .i32⟩
  | .hbm, ⟨67, _⟩ => ⟨S4000000, .i1⟩
  | .hbm, ⟨68, _⟩ => ⟨S_, .i32⟩
  | .hbm, ⟨69, _⟩ => ⟨S4000000, .i32⟩
  | .hbm, ⟨70, _⟩ => ⟨S4000000, .i32⟩
  | .hbm, ⟨71, _⟩ => ⟨S4000000, .i32⟩
  | .hbm, ⟨72, _⟩ => ⟨S4000000x1, .i32⟩
  | .hbm, ⟨73, _⟩ => ⟨S64x4000000, .f32⟩
  | .hbm, ⟨74, _⟩ => ⟨S_, .i32⟩
  | .hbm, ⟨75, _⟩ => ⟨S_, .f32⟩
  | .hbm, ⟨76, _⟩ => ⟨S64x4005888, .f32⟩
  | .hbm, ⟨77, _⟩ => ⟨S64x4005888, .f32⟩
  | .hbm, ⟨78, _⟩ => ⟨S64x4000000, .f32⟩
  | .hbm, ⟨79, _⟩ => ⟨S_, .f32⟩
  | .hbm, ⟨80, _⟩ => ⟨S64x150000, .f32⟩
  | .hbm, ⟨81, _⟩ => ⟨S_, .i32⟩
  | .hbm, ⟨82, _⟩ => ⟨S4000000, .i32⟩
  | .hbm, ⟨83, _⟩ => ⟨S4000000, .i1⟩
  | .hbm, ⟨84, _⟩ => ⟨S_, .i32⟩
  | .hbm, ⟨85, _⟩ => ⟨S4000000, .i32⟩
  | .hbm, ⟨86, _⟩ => ⟨S4000000, .i32⟩
  | .hbm, ⟨87, _⟩ => ⟨S4000000, .i32⟩
  | .hbm, ⟨88, _⟩ => ⟨S4000000x1, .i32⟩
  | .hbm, ⟨89, _⟩ => ⟨S64x150000, .f32⟩
  | .hbm, ⟨90, _⟩ => ⟨S64x150000, .f32⟩
  | .hbm, ⟨91, _⟩ => ⟨S_, .f32⟩
  | .hbm, ⟨92, _⟩ => ⟨S64x150000, .f32⟩
  | .hbm, ⟨93, _⟩ => ⟨S64x150000, .f32⟩
  | .hbm, ⟨94, _⟩ => ⟨S150000x64, .f32⟩
  | .hbm, ⟨95, _⟩ => ⟨S100000x64, .f32⟩
  | .hbm, ⟨96, _⟩ => ⟨S50000x64, .f32⟩
  | .local _ .vmem, ⟨0, _⟩ => ⟨S64x24576, .f32⟩
  | .local _ .vmem, ⟨1, _⟩ => ⟨S64x24576, .f32⟩
  | .local _ .vmem, ⟨2, _⟩ => ⟨S24576, .f32⟩
  | .local _ .vmem, ⟨3, _⟩ => ⟨S24576, .f32⟩
  | .local _ .vmem, ⟨4, _⟩ => ⟨S64x24576, .f32⟩
  | .local _ .vmem, ⟨5, _⟩ => ⟨S64x24576, .f32⟩
  | .local _ .vmem, ⟨6, _⟩ => ⟨S64x24576, .f32⟩
  | .local _ .vmem, ⟨7, _⟩ => ⟨S64x24576, .f32⟩
  | .local _ .vmem, ⟨8, _⟩ => ⟨S24576, .f32⟩
  | .local _ .vmem, ⟨9, _⟩ => ⟨S24576, .f32⟩
  | .local _ .vmem, ⟨10, _⟩ => ⟨S64x24576, .f32⟩
  | .local _ .vmem, ⟨11, _⟩ => ⟨S64x24576, .f32⟩
  | .local _ .vmem, ⟨12, _⟩ => ⟨S64x24576, .f32⟩
  | .local _ .vmem, ⟨13, _⟩ => ⟨S64x24576, .f32⟩
  | .local _ .vmem, ⟨14, _⟩ => ⟨S24576, .f32⟩
  | .local _ .vmem, ⟨15, _⟩ => ⟨S24576, .f32⟩
  | .local _ .vmem, ⟨16, _⟩ => ⟨S64x24576, .f32⟩
  | .local _ .vmem, ⟨17, _⟩ => ⟨S64x24576, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_call2_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_c_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_call3_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_c_15 : Ref sig .tc := ⟨.hbm, 81, rfl⟩
abbrev main_v56 : Ref sig .tc := ⟨.hbm, 82, rfl⟩
abbrev main_v57 : Ref sig .tc := ⟨.hbm, 83, rfl⟩
abbrev main_c_16 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![163], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x24576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![163], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x24576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S24576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x24576 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![163], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x24576 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S24576 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x24576 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  pads_S4000000_S4005888_058880 : S4000000.Pads (![0] : Fin 1 → Nat) ![5888] ![0] S4005888
  h_S_ : 0 < S_.numel
  concatenates_S100000x64_S50000x64_S150000x64_d0 : Shape.Concatenates [S100000x64, S50000x64] S150000x64 0
  transposes_S150000x64_S64x150000_1_0 : S150000x64.Transposes [1, 0] S64x150000
  bcast_S_S4000000 : S_.BroadcastsInDim S4000000 (![] : Fin 0 → Fin S4000000.rank)
  bcast_S4000000_S4000000x1_0 : S4000000.BroadcastsInDim S4000000x1 (![0] : Fin 1 → Fin S4000000x1.rank)
  pads_S64x4000000_S64x4005888_000_058880 : S64x4000000.Pads (![0, 0] : Fin 2 → Nat) ![0, 5888] ![0, 0] S64x4005888
  inb_S24576_S24576_0 : ∀ a, (![0] : Fin 1 → Nat) a + S24576.size a ≤ S24576.size a
  h_S24576 : 0 < S24576.numel
  shapeCasts_S24576_S24576 : S24576.ShapeCasts S24576
  shapeCasts_S24576_S1x24576 : S24576.ShapeCasts S1x24576
  shapeCasts_S1x24576_S1x24576 : S1x24576.ShapeCasts S1x24576
  broadcasts_S1x24576_S64x24576 : S1x24576.Broadcasts S64x24576
  inb_S64x24576_S64x24576_0_0 : ∀ a, (![0, 0] : Fin 2 → Nat) a + S64x24576.size a ≤ S64x24576.size a
  h_S64x24576 : 0 < S64x24576.numel
  shapeCasts_S64x24576_S64x24576 : S64x24576.ShapeCasts S64x24576
  slices_S64x4005888_S64x4000000_0_0 : S64x4005888.Slices ![0, 0] S64x4000000
  bcast_S_S64x150000 : S_.BroadcastsInDim S64x150000 (![] : Fin 0 → Fin S64x150000.rank)
  transposes_S64x150000_S150000x64_1_0 : S64x150000.Transposes [1, 0] S150000x64
  slices_S150000x64_S100000x64_0_0 : S150000x64.Slices ![0, 0] S100000x64
  slices_S150000x64_S50000x64_100000_0 : S150000x64.Slices ![100000, 0] S50000x64
  gather_S64x150000_S4000000x1_S64x4000000_0_1_n_n_1_1_641_wf : GatherDims.WF S64x150000 S4000000x1 S64x4000000 [0] [1] [] [1] [] 1 ![64, 1]
  scatter_S64x150000_S4000000x1_S64x4000000_0_1_1_1_wf : ScatterDims.WF S64x150000 S4000000x1 S64x4000000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x24576.size a ≤ S64x4005888.size a
  hwx0_0 : ∀ i : grid0.Coords, EltTy.bits .f32 = 32 ∨ (Rect.block (s := S64x4005888) S64x24576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24576.size a ≤ S4005888.size a
  hwx0_1 : ∀ i : grid0.Coords, EltTy.bits .f32 = 32 ∨ (Rect.block (s := S4005888) S24576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x24576.size a ≤ S64x4005888.size a
  hwx0_2 : ∀ i : grid0.Coords, EltTy.bits .f32 = 32 ∨ (Rect.block (s := S64x4005888) S64x24576.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x24576.size a ≤ S64x4005888.size a
  hwx1_0 : ∀ i : grid1.Coords, EltTy.bits .f32 = 32 ∨ (Rect.block (s := S64x4005888) S64x24576.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S24576.size a ≤ S4005888.size a
  hwx1_1 : ∀ i : grid1.Coords, EltTy.bits .f32 = 32 ∨ (Rect.block (s := S4005888) S24576.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x24576.size a ≤ S64x4005888.size a
  hwx1_2 : ∀ i : grid1.Coords, EltTy.bits .f32 = 32 ∨ (Rect.block (s := S64x4005888) S64x24576.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x24576.size a ≤ S64x4005888.size a
  hwx2_0 : ∀ i : grid2.Coords, EltTy.bits .f32 = 32 ∨ (Rect.block (s := S64x4005888) S64x24576.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S24576.size a ≤ S4005888.size a
  hwx2_1 : ∀ i : grid2.Coords, EltTy.bits .f32 = 32 ∨ (Rect.block (s := S4005888) S24576.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x24576.size a ≤ S64x4005888.size a
  hwx2_2 : ∀ i : grid2.Coords, EltTy.bits .f32 = 32 ∨ (Rect.block (s := S64x4005888) S64x24576.size (cc2_transform_2 i) (hinb2_2 i)).WholeWords (EltTy.packing .f32)

variable [Facts₀]

def gather_S64x150000_S4000000x1_S64x4000000_0_1_n_n_1_1_641 : GatherDims S64x150000 S4000000x1 S64x4000000 where
  offsetDims := [0]
  collapsedSliceDims := [1]
  operandBatchingDims := []
  startIndicesBatchingDims := []
  startIndexMap := [1]
  indexVectorDim := 1
  sliceSizes := ![64, 1]
  wf := gather_S64x150000_S4000000x1_S64x4000000_0_1_n_n_1_1_641_wf
def scatter_S64x150000_S4000000x1_S64x4000000_0_1_1_1 : ScatterDims S64x150000 S4000000x1 S64x4000000 where
  updateWindowDims := [0]
  insertedWindowDims := [1]
  scatterDimsToOperandDims := [1]
  indexVectorDim := 1
  wf := scatter_S64x150000_S4000000x1_S64x4000000_0_1_1_1_wf

abbrev win0_0 : Pipeline.Window sig grid0 :=
  Pipeline.Window.ofSpec (Memref.whole main_v14) S64x24576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S24576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x24576.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S64x24576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S24576.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64x24576.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S64x24576.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S24576.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S64x24576.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S2x4000000 : Shape := ⟨2, ![2, 4000000]⟩
abbrev S1x4000000 : Shape := ⟨2, ![1, 4000000]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S2x4000000, .i32⟩
  | .hbm, ⟨4, _⟩ => ⟨S1x4000000, .i32⟩
  | .hbm, ⟨5, _⟩ => ⟨S4000000, .i32⟩
  | .hbm, ⟨6, _⟩ => ⟨S1x4000000, .i32⟩
  | .hbm, ⟨7, _⟩ => ⟨S4000000, .i32⟩
  | .hbm, ⟨8, _⟩ => ⟨S150000x64, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x1, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S150000x64, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S150000x64, .f32⟩
  | .hbm, ⟨32, _⟩ => ⟨S150000x64, .f32⟩
  | .hbm, ⟨33, _⟩ => ⟨S_, .i32⟩
  | .hbm, ⟨34, _⟩ => ⟨S4000000, .i32⟩
  | .hbm, ⟨35, _⟩ => ⟨S4000000, .i1⟩
  | .hbm, ⟨36, _⟩ => ⟨S_, .i32⟩
  | .hbm, ⟨37, _⟩ => ⟨S4000000, .i32⟩
  | .hbm, ⟨38, _⟩ => ⟨S4000000, .i32⟩
  | .hbm, ⟨39, _⟩ => ⟨S4000000, .i32⟩
  | .hbm, ⟨40, _⟩ => ⟨S4000000x1, .i32⟩
  | .hbm, ⟨41, _⟩ => ⟨S4000000x64, .f32⟩
  | .hbm, ⟨42, _⟩ => ⟨S4000000x1, .f32⟩
  | .hbm, ⟨43, _⟩ => ⟨S4000000x64, .f32⟩
  | .hbm, ⟨44, _⟩ => ⟨S4000000x64, .f32⟩
  | .hbm, ⟨45, _⟩ => ⟨S_, .f32⟩
  | .hbm, ⟨46, _⟩ => ⟨S150000x64, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S150000x64, .f32⟩
  | .hbm, ⟨56, _⟩ => ⟨S150000x64, .f32⟩
  | .hbm, ⟨57, _⟩ => ⟨S_, .i32⟩
  | .hbm, ⟨58, _⟩ => ⟨S4000000, .i32⟩
  | .hbm, ⟨59, _⟩ => ⟨S4000000, .i1⟩
  | .hbm, ⟨60, _⟩ => ⟨S_, .i32⟩
  | .hbm, ⟨61, _⟩ => ⟨S4000000, .i32⟩
  | .hbm, ⟨62, _⟩ => ⟨S4000000, .i32⟩
  | .hbm, ⟨63, _⟩ => ⟨S4000000, .i32⟩
  | .hbm, ⟨64, _⟩ => ⟨S4000000x1, .i32⟩
  | .hbm, ⟨65, _⟩ => ⟨S4000000x64, .f32⟩
  | .hbm, ⟨66, _⟩ => ⟨S4000000x1, .f32⟩
  | .hbm, ⟨67, _⟩ => ⟨S4000000x64, .f32⟩
  | .hbm, ⟨68, _⟩ => ⟨S4000000x64, .f32⟩
  | .hbm, ⟨69, _⟩ => ⟨S_, .f32⟩
  | .hbm, ⟨70, _⟩ => ⟨S150000x64, .f32⟩
  | .hbm, ⟨71, _⟩ => ⟨S_, .i32⟩
  | .hbm, ⟨72, _⟩ => ⟨S4000000, .i32⟩
  | .hbm, ⟨73, _⟩ => ⟨S4000000, .i1⟩
  | .hbm, ⟨74, _⟩ => ⟨S_, .i32⟩
  | .hbm, ⟨75, _⟩ => ⟨S4000000, .i32⟩
  | .hbm, ⟨76, _⟩ => ⟨S4000000, .i32⟩
  | .hbm, ⟨77, _⟩ => ⟨S4000000, .i32⟩
  | .hbm, ⟨78, _⟩ => ⟨S4000000x1, .i32⟩
  | .hbm, ⟨79, _⟩ => ⟨S150000x64, .f32⟩
  | .hbm, ⟨80, _⟩ => ⟨S150000x64, .f32⟩
  | .hbm, ⟨81, _⟩ => ⟨S_, .f32⟩
  | .hbm, ⟨82, _⟩ => ⟨S150000x64, .f32⟩
  | .hbm, ⟨83, _⟩ => ⟨S150000x64, .f32⟩
  | .hbm, ⟨84, _⟩ => ⟨S100000x64, .f32⟩
  | .hbm, ⟨85, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_c_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S100000x64_S50000x64_S150000x64_d0 : Shape.Concatenates [S100000x64, S50000x64] S150000x64 0
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.KerRun.lean ====
/-
  The idealized kernel's run with its two results named.

  The program is twelve stretches of host operations and three launches of the scaling kernel. Its run ends with
  every buffer that outlives a launch at the contents obtained by folding the stretches and the launches' write-backs
  over the launch memory; read at the two result buffers and at the four arguments, that is the statement below.
-/
import proofs.«177932_j9028021256887_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two results end at the last
    boundary's contents of their buffers, and the arguments end as launched. -/
theorem run : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v67 (by decide)),
       h c _ (mem_uc main_v68 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.KernelIdeal.KRun

end
-- ==== Proof.ScaleSpec.lean ====
/-
  The scaling kernel as one function of its two operand arrays.

  Every launch of the kernel multiplies a table `g` of 64 rows and 4005888 columns, column by column,
  by a vector `w` of 4005888 weights: entry `(p, e)` of the result is `g(p, e) · w(e)`. The body sees
  one block of 24576 columns at a time: it recasts its block of `w` as one row, spreads that row over
  the 64 rows and multiplies the block of `g` by it entry by entry.
-/
import proofs.«177932_j9028021256887_1_alg».proof.Proof.Gen.KernelIdeal.Skeleton
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Scale

open Idealize.ShloMosaic Idealize.ShloMosaic.ValueIdx Cert.KernelIdeal Cert.KernelIdeal.Gen

/-- The table `g` with column `e` multiplied by the weight `w(e)`. -/
def scaled (g : S64x4005888.Idx → EReal) (w : S4005888.Idx → EReal) : S64x4005888.Idx → EReal :=
  fun i => g i * w (ix1 (i 1))

theorem scaled_apply (g : S64x4005888.Idx → EReal) (w : S4005888.Idx → EReal) (p : Fin 64) (e : Fin 4005888) :
    scaled g w (ix2 p e) = g (ix2 p e) * w (ix1 e) := rfl

/-- The body's arithmetic at entry `(p, q)` of a block: the block of `g` there times entry `q` of the block of `w`
    (the recasts to the same shape are identities; the recast `[24576] → [1, 24576]` and the spread over 64 rows
    read the one row at `q`). -/
theorem body_apply (x1 : Vec Ideal S24576 .f32) (x0 : Vec Ideal S64x24576 .f32)
    (h1 : S64x24576.ShapeCasts S64x24576) (h2 : S24576.ShapeCasts S24576) (h3 : S24576.ShapeCasts S1x24576)
    (h4 : S1x24576.ShapeCasts S1x24576) (h5 : S1x24576.Broadcasts S64x24576) (p : Fin 64) (q : Fin 24576) :
    mulf (F := Ideal) (φ := .f32) (shapeCast S64x24576 x0 h1)
        (broadcastTo S64x24576 (shapeCast S1x24576 (shapeCast S1x24576 (shapeCast S24576 x1 h2) h3) h4) h5) (ix2 p q)
      = x0 (ix2 p q) * x1 (ix1 q) := by
  rw [mulf_apply, shapeCast_self, shapeCast_self, shapeCast_self, broadcastTo_1b_ab_apply, shapeCast_a_1a_apply]

theorem pay0_apply (x1 : Vec Ideal S24576 .f32) (x0 : Vec Ideal S64x24576 .f32) (p : Fin 64) (q : Fin 24576) :
    k0_pay1 (F := Ideal) x1 x0 (ix2 p q) = x0 (ix2 p q) * x1 (ix1 q) := body_apply x1 x0 _ _ _ _ _ p q
theorem pay1_apply (x1 : Vec Ideal S24576 .f32) (x0 : Vec Ideal S64x24576 .f32) (p : Fin 64) (q : Fin 24576) :
    k1_pay1 (F := Ideal) x1 x0 (ix2 p q) = x0 (ix2 p q) * x1 (ix1 q) := body_apply x1 x0 _ _ _ _ _ p q
theorem pay2_apply (x1 : Vec Ideal S24576 .f32) (x0 : Vec Ideal S64x24576 .f32) (p : Fin 64) (q : Fin 24576) :
    k2_pay1 (F := Ideal) x1 x0 (ix2 p q) = x0 (ix2 p q) * x1 (ix1 q) := body_apply x1 x0 _ _ _ _ _ p q

/-- The all-zero offsets of a whole-block access. -/
theorem hz2 : (![0, 0] : Fin 2 → Nat) = fun _ => 0 := funext fun a => by fin_cases a <;> rfl
theorem hz1 : (![0] : Fin 1 → Nat) = fun _ => 0 := funext fun a => by fin_cases a; rfl

end Cert.KernelIdeal.Scale

end
-- ==== Proof.Region0.lean ====
/-
  Launch 0 of the scaling kernel: the output array once every block has been written back.

  The grid has 163 points; at point `t` the kernel reads columns `24576·t … 24576·t + 24575` of the table and of the
  weights and writes the same columns of the output. What a point writes back is its block of the table scaled
  column by column, and the 163 blocks tile the 4005888 columns (column `e` lies in block `e / 24576`), so the output
  array ends as the whole table scaled column by column.
-/
import proofs.«177932_j9028021256887_1_alg».proof.Proof.Gen.KernelIdeal.Frame
import proofs.«177932_j9028021256887_1_alg».proof.Proof.ScaleSpec

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Scale

variable (V : (c : Dev nD) → (b : Ref sig .tc) → Buf (Elt Ideal) ((c : Thread nD τ).loc b))

/-- The printed index maps over the grid: the table's and the output's block at point `t` is block `(0, t)`, the
    weights' block is block `t`. -/
theorem idx_facts : ∀ t : Fin cfg0.N, win0_0.index t (0 : Fin 2) = 0 ∧ win0_0.index t (1 : Fin 2) = t.val
    ∧ win0_1.index t (0 : Fin 1) = t.val ∧ win0_2.index t (0 : Fin 2) = 0 ∧ win0_2.index t (1 : Fin 2) = t.val :=
  (by decide +kernel : ∀ t : Fin grid0.N, _)

/-- What point `t` writes back is its block of the scaled table. -/
theorem flushed_eq (c : Dev nD) (t : Fin cfg0.N) :
    (dat0 V c).flushed 2 t = ((cfg0.win 2).blk t).view.read (Elt Ideal)
      (scaled (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S64x24576) hz2, View.ld_unit_zero (S := S24576) hz1]
  obtain ⟨e0, e1, e2, e3, e4⟩ := idx_facts t
  funext j
  show k0_pay1 (F := Ideal) (iblk0 V c 1 t) (iblk0 V c 0 t) j
    = scaled (V c (Pipeline.arrRef spec0 0)) (V c (Pipeline.arrRef spec0 1)) (((cfg0.win 2).blk t).view.emb j)
  have hj : (j : S64x24576.Idx) = ix2 (j 0) (j 1) := eq_ix2 (n0 := 64) (n1 := 24576) j
  refine (congrArg (k0_pay1 (F := Ideal) (iblk0 V c 1 t) (iblk0 V c 0 t)) hj).trans ?_
  refine (pay0_apply (iblk0 V c 1 t) (iblk0 V c 0 t) (j 0) (j 1)).trans ?_
  have h0 : ((cfg0.win 0).blk t).view.emb (ix2 (j 0) (j 1)) = ((cfg0.win 2).blk t).view.emb j := by
    funext a; apply Fin.ext
    match a with
    | ⟨0, _⟩ => show win0_0.index t (0 : Fin 2) * 64 + 1 * (j 0).val = win0_2.index t (0 : Fin 2) * 64 + 1 * (j 0).val; omega
    | ⟨1, _⟩ => show win0_0.index t (1 : Fin 2) * 24576 + 1 * (j 1).val = win0_2.index t (1 : Fin 2) * 24576 + 1 * (j 1).val; omega
  have h1 : ((cfg0.win 1).blk t).view.emb (ix1 (j 1)) = ix1 ((((cfg0.win 2).blk t).view.emb j) 1) := by
    funext a; apply Fin.ext
    match a with
    | ⟨0, _⟩ => show win0_1.index t (0 : Fin 1) * 24576 + 1 * (j 1).val = win0_2.index t (1 : Fin 2) * 24576 + 1 * (j 1).val; omega
  exact congrArg₂ (fun (a b : EReal) => a * b)
    (congrArg (V c (Pipeline.arrRef spec0 0)) h0) (congrArg (V c (Pipeline.arrRef spec0 1)) h1)

/-- An index of the output array is in point `t`'s block iff each coordinate is in the block's range on its axis. -/
theorem mem_blk (t : Fin cfg0.N) (i : S64x4005888.Idx) :
    i ∈ ((cfg0.win 2).blk t).view.set ↔ ∀ a : Fin 2, win0_2.index t a * S64x24576.size a ≤ (i a).val
      ∧ (i a).val < win0_2.index t a * S64x24576.size a + S64x24576.size a := by
  show i ∈ ((View.whole main_v15).slice (win0_2.rect t)).set ↔ _
  rw [View.set_slice_whole, Rect.mem_set_unit]
  exact Iff.rfl

/-- Every index of the output array is in the block of the point its column names. -/
theorem cover (i : S64x4005888.Idx) :
    ∃ t : Fin cfg0.N, (cfg0.win 2).flush t = true ∧ i ∈ ((cfg0.win 2).blk t).view.set := by
  have hi0 : (i 0).val < 64 := (i 0).isLt
  have hi1 : (i 1).val < 4005888 := (i 1).isLt
  have hN : grid0.N = 163 := N_0
  have hlt : (i 1).val / 24576 < cfg0.N := by show _ < grid0.N; rw [hN]; omega
  refine ⟨⟨(i 1).val / 24576, hlt⟩, flush0_2 _, ?_⟩
  rw [mem_blk]
  obtain ⟨e0, e1, e2, e3, e4⟩ := idx_facts ⟨(i 1).val / 24576, hlt⟩
  have e4' : win0_2.index ⟨(i 1).val / 24576, hlt⟩ (1 : Fin 2) = (i 1).val / 24576 := e4
  intro a
  match a with
  | ⟨0, _⟩ =>
    show win0_2.index ⟨(i 1).val / 24576, hlt⟩ (0 : Fin 2) * 64 ≤ (i 0).val
      ∧ (i 0).val < win0_2.index ⟨(i 1).val / 24576, hlt⟩ (0 : Fin 2) * 64 + 64
    omega
  | ⟨1, _⟩ =>
    show win0_2.index ⟨(i 1).val / 24576, hlt⟩ (1 : Fin 2) * 24576 ≤ (i 1).val
      ∧ (i 1).val < win0_2.index ⟨(i 1).val / 24576, hlt⟩ (1 : Fin 2) * 24576 + 24576
    omega

/-- The output array after the launch: the table scaled column by column by the weights. -/
theorem out_eq (c : Dev nD) :
    (dat0 V c).arrAt 2 cfg0.N = scaled (V c (Pipeline.arrRef spec0 0)) (V c (Pipeline.arrRef spec0 1)) :=
  (dat0 V c).arrAt_eq_of_cover 2 _ (fun t _ => flushed_eq V c t) cover

end Cert.KernelIdeal.Reg0

end
-- ==== Proof.Region1.lean ====
/-
  Launch 1 of the scaling kernel: the output array once every block has been written back.

  The grid has 163 points; at point `t` the kernel reads columns `24576·t … 24576·t + 24575` of the table and of the
  weights and writes the same columns of the output. What a point writes back is its block of the table scaled
  column by column, and the 163 blocks tile the 4005888 columns (column `e` lies in block `e / 24576`), so the output
  array ends as the whole table scaled column by column.
-/
import proofs.«177932_j9028021256887_1_alg».proof.Proof.Gen.KernelIdeal.Frame
import proofs.«177932_j9028021256887_1_alg».proof.Proof.ScaleSpec

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Scale

variable (V : (c : Dev nD) → (b : Ref sig .tc) → Buf (Elt Ideal) ((c : Thread nD τ).loc b))

/-- The printed index maps over the grid: the table's and the output's block at point `t` is block `(0, t)`, the
    weights' block is block `t`. -/
theorem idx_facts : ∀ t : Fin cfg1.N, win1_0.index t (0 : Fin 2) = 0 ∧ win1_0.index t (1 : Fin 2) = t.val
    ∧ win1_1.index t (0 : Fin 1) = t.val ∧ win1_2.index t (0 : Fin 2) = 0 ∧ win1_2.index t (1 : Fin 2) = t.val :=
  (by decide +kernel : ∀ t : Fin grid1.N, _)

/-- What point `t` writes back is its block of the scaled table. -/
theorem flushed_eq (c : Dev nD) (t : Fin cfg1.N) :
    (dat1 V c).flushed 2 t = ((cfg1.win 2).blk t).view.read (Elt Ideal)
      (scaled (V c (Pipeline.arrRef spec1 0)) (V c (Pipeline.arrRef spec1 1))) := by
  show (cfg1.win 2).cut (grid1.coords t) ((dat1 V c).after 2 t) = _
  rw [after1_2]
  unfold out1_2
  rw [View.canon_unit_zero hz2]
  simp only [View.ld_unit_zero (S := S64x24576) hz2, View.ld_unit_zero (S := S24576) hz1]
  obtain ⟨e0, e1, e2, e3, e4⟩ := idx_facts t
  funext j
  show k1_pay1 (F := Ideal) (iblk1 V c 1 t) (iblk1 V c 0 t) j
    = scaled (V c (Pipeline.arrRef spec1 0)) (V c (Pipeline.arrRef spec1 1)) (((cfg1.win 2).blk t).view.emb j)
  have hj : (j : S64x24576.Idx) = ix2 (j 0) (j 1) := eq_ix2 (n0 := 64) (n1 := 24576) j
  refine (congrArg (k1_pay1 (F := Ideal) (iblk1 V c 1 t) (iblk1 V c 0 t)) hj).trans ?_
  refine (pay1_apply (iblk1 V c 1 t) (iblk1 V c 0 t) (j 0) (j 1)).trans ?_
  have h0 : ((cfg1.win 0).blk t).view.emb (ix2 (j 0) (j 1)) = ((cfg1.win 2).blk t).view.emb j := by
    funext a; apply Fin.ext
    match a with
    | ⟨0, _⟩ => show win1_0.index t (0 : Fin 2) * 64 + 1 * (j 0).val = win1_2.index t (0 : Fin 2) * 64 + 1 * (j 0).val; omega
    | ⟨1, _⟩ => show win1_0.index t (1 : Fin 2) * 24576 + 1 * (j 1).val = win1_2.index t (1 : Fin 2) * 24576 + 1 * (j 1).val; omega
  have h1 : ((cfg1.win 1).blk t).view.emb (ix1 (j 1)) = ix1 ((((cfg1.win 2).blk t).view.emb j) 1) := by
    funext a; apply Fin.ext
    match a with
    | ⟨0, _⟩ => show win1_1.index t (0 : Fin 1) * 24576 + 1 * (j 1).val = win1_2.index t (1 : Fin 2) * 24576 + 1 * (j 1).val; omega
  exact congrArg₂ (fun (a b : EReal) => a * b)
    (congrArg (V c (Pipeline.arrRef spec1 0)) h0) (congrArg (V c (Pipeline.arrRef spec1 1)) h1)

/-- An index of the output array is in point `t`'s block iff each coordinate is in the block's range on its axis. -/
theorem mem_blk (t : Fin cfg1.N) (i : S64x4005888.Idx) :
    i ∈ ((cfg1.win 2).blk t).view.set ↔ ∀ a : Fin 2, win1_2.index t a * S64x24576.size a ≤ (i a).val
      ∧ (i a).val < win1_2.index t a * S64x24576.size a + S64x24576.size a := by
  show i ∈ ((View.whole main_v34).slice (win1_2.rect t)).set ↔ _
  rw [View.set_slice_whole, Rect.mem_set_unit]
  exact Iff.rfl

/-- Every index of the output array is in the block of the point its column names. -/
theorem cover (i : S64x4005888.Idx) :
    ∃ t : Fin cfg1.N, (cfg1.win 2).flush t = true ∧ i ∈ ((cfg1.win 2).blk t).view.set := by
  have hi0 : (i 0).val < 64 := (i 0).isLt
  have hi1 : (i 1).val < 4005888 := (i 1).isLt
  have hN : grid1.N = 163 := N_1
  have hlt : (i 1).val / 24576 < cfg1.N := by show _ < grid1.N; rw [hN]; omega
  refine ⟨⟨(i 1).val / 24576, hlt⟩, flush1_2 _, ?_⟩
  rw [mem_blk]
  obtain ⟨e0, e1, e2, e3, e4⟩ := idx_facts ⟨(i 1).val / 24576, hlt⟩
  have e4' : win1_2.index ⟨(i 1).val / 24576, hlt⟩ (1 : Fin 2) = (i 1).val / 24576 := e4
  intro a
  match a with
  | ⟨0, _⟩ =>
    show win1_2.index ⟨(i 1).val / 24576, hlt⟩ (0 : Fin 2) * 64 ≤ (i 0).val
      ∧ (i 0).val < win1_2.index ⟨(i 1).val / 24576, hlt⟩ (0 : Fin 2) * 64 + 64
    omega
  | ⟨1, _⟩ =>
    show win1_2.index ⟨(i 1).val / 24576, hlt⟩ (1 : Fin 2) * 24576 ≤ (i 1).val
      ∧ (i 1).val < win1_2.index ⟨(i 1).val / 24576, hlt⟩ (1 : Fin 2) * 24576 + 24576
    omega

/-- The output array after the launch: the table scaled column by column by the weights. -/
theorem out_eq (c : Dev nD) :
    (dat1 V c).arrAt 2 cfg1.N = scaled (V c (Pipeline.arrRef spec1 0)) (V c (Pipeline.arrRef spec1 1)) :=
  (dat1 V c).arrAt_eq_of_cover 2 _ (fun t _ => flushed_eq V c t) cover

end Cert.KernelIdeal.Reg1

end
-- ==== Proof.Region2.lean ====
/-
  Launch 2 of the scaling kernel: the output array once every block has been written back.

  The grid has 163 points; at point `t` the kernel reads columns `24576·t … 24576·t + 24575` of the table and of the
  weights and writes the same columns of the output. What a point writes back is its block of the table scaled
  column by column, and the 163 blocks tile the 4005888 columns (column `e` lies in block `e / 24576`), so the output
  array ends as the whole table scaled column by column.
-/
import proofs.«177932_j9028021256887_1_alg».proof.Proof.Gen.KernelIdeal.Frame
import proofs.«177932_j9028021256887_1_alg».proof.Proof.ScaleSpec

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Scale

variable (V : (c : Dev nD) → (b : Ref sig .tc) → Buf (Elt Ideal) ((c : Thread nD τ).loc b))

/-- The printed index maps over the grid: the table's and the output's block at point `t` is block `(0, t)`, the
    weights' block is block `t`. -/
theorem idx_facts : ∀ t : Fin cfg2.N, win2_0.index t (0 : Fin 2) = 0 ∧ win2_0.index t (1 : Fin 2) = t.val
    ∧ win2_1.index t (0 : Fin 1) = t.val ∧ win2_2.index t (0 : Fin 2) = 0 ∧ win2_2.index t (1 : Fin 2) = t.val :=
  (by decide +kernel : ∀ t : Fin grid2.N, _)

/-- What point `t` writes back is its block of the scaled table. -/
theorem flushed_eq (c : Dev nD) (t : Fin cfg2.N) :
    (dat2 V c).flushed 2 t = ((cfg2.win 2).blk t).view.read (Elt Ideal)
      (scaled (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S64x24576) hz2, View.ld_unit_zero (S := S24576) hz1]
  obtain ⟨e0, e1, e2, e3, e4⟩ := idx_facts t
  funext j
  show k2_pay1 (F := Ideal) (iblk2 V c 1 t) (iblk2 V c 0 t) j
    = scaled (V c (Pipeline.arrRef spec2 0)) (V c (Pipeline.arrRef spec2 1)) (((cfg2.win 2).blk t).view.emb j)
  have hj : (j : S64x24576.Idx) = ix2 (j 0) (j 1) := eq_ix2 (n0 := 64) (n1 := 24576) j
  refine (congrArg (k2_pay1 (F := Ideal) (iblk2 V c 1 t) (iblk2 V c 0 t)) hj).trans ?_
  refine (pay2_apply (iblk2 V c 1 t) (iblk2 V c 0 t) (j 0) (j 1)).trans ?_
  have h0 : ((cfg2.win 0).blk t).view.emb (ix2 (j 0) (j 1)) = ((cfg2.win 2).blk t).view.emb j := by
    funext a; apply Fin.ext
    match a with
    | ⟨0, _⟩ => show win2_0.index t (0 : Fin 2) * 64 + 1 * (j 0).val = win2_2.index t (0 : Fin 2) * 64 + 1 * (j 0).val; omega
    | ⟨1, _⟩ => show win2_0.index t (1 : Fin 2) * 24576 + 1 * (j 1).val = win2_2.index t (1 : Fin 2) * 24576 + 1 * (j 1).val; omega
  have h1 : ((cfg2.win 1).blk t).view.emb (ix1 (j 1)) = ix1 ((((cfg2.win 2).blk t).view.emb j) 1) := by
    funext a; apply Fin.ext
    match a with
    | ⟨0, _⟩ => show win2_1.index t (0 : Fin 1) * 24576 + 1 * (j 1).val = win2_2.index t (1 : Fin 2) * 24576 + 1 * (j 1).val; omega
  exact congrArg₂ (fun (a b : EReal) => a * b)
    (congrArg (V c (Pipeline.arrRef spec2 0)) h0) (congrArg (V c (Pipeline.arrRef spec2 1)) h1)

/-- An index of the output array is in point `t`'s block iff each coordinate is in the block's range on its axis. -/
theorem mem_blk (t : Fin cfg2.N) (i : S64x4005888.Idx) :
    i ∈ ((cfg2.win 2).blk t).view.set ↔ ∀ a : Fin 2, win2_2.index t a * S64x24576.size a ≤ (i a).val
      ∧ (i a).val < win2_2.index t a * S64x24576.size a + S64x24576.size a := by
  show i ∈ ((View.whole main_v53).slice (win2_2.rect t)).set ↔ _
  rw [View.set_slice_whole, Rect.mem_set_unit]
  exact Iff.rfl

/-- Every index of the output array is in the block of the point its column names. -/
theorem cover (i : S64x4005888.Idx) :
    ∃ t : Fin cfg2.N, (cfg2.win 2).flush t = true ∧ i ∈ ((cfg2.win 2).blk t).view.set := by
  have hi0 : (i 0).val < 64 := (i 0).isLt
  have hi1 : (i 1).val < 4005888 := (i 1).isLt
  have hN : grid2.N = 163 := N_2
  have hlt : (i 1).val / 24576 < cfg2.N := by show _ < grid2.N; rw [hN]; omega
  refine ⟨⟨(i 1).val / 24576, hlt⟩, flush2_2 _, ?_⟩
  rw [mem_blk]
  obtain ⟨e0, e1, e2, e3, e4⟩ := idx_facts ⟨(i 1).val / 24576, hlt⟩
  have e4' : win2_2.index ⟨(i 1).val / 24576, hlt⟩ (1 : Fin 2) = (i 1).val / 24576 := e4
  intro a
  match a with
  | ⟨0, _⟩ =>
    show win2_2.index ⟨(i 1).val / 24576, hlt⟩ (0 : Fin 2) * 64 ≤ (i 0).val
      ∧ (i 0).val < win2_2.index ⟨(i 1).val / 24576, hlt⟩ (0 : Fin 2) * 64 + 64
    omega
  | ⟨1, _⟩ =>
    show win2_2.index ⟨(i 1).val / 24576, hlt⟩ (1 : Fin 2) * 24576 ≤ (i 1).val
      ∧ (i 1).val < win2_2.index ⟨(i 1).val / 24576, hlt⟩ (1 : Fin 2) * 24576 + 24576
    omega

/-- The output array after the launch: the table scaled column by column by the weights. -/
theorem out_eq (c : Dev nD) :
    (dat2 V c).arrAt 2 cfg2.N = scaled (V c (Pipeline.arrRef spec2 0)) (V c (Pipeline.arrRef spec2 1)) :=
  (dat2 V c).arrAt_eq_of_cover 2 _ (fun t _ => flushed_eq V c t) cover

end Cert.KernelIdeal.Reg2

end
-- ==== Proof.KerStages.lean ====
/-
  The idealized kernel's intermediate arrays as functions of its four arguments.

  The program keeps the embedding table transposed, `[64, 150000]`: one column per node. Each of the three layers
  gathers, for every edge, the column of the edge's source node, pads the 4000000 gathered columns with zeros to
  4005888, scales column `e` by the (zero-padded) weight of edge `e` on the vector unit, drops the padding again and
  adds column `e` into the column of the edge's target node of a zero table. The result is the mean of the
  table and the three layers' tables, transposed back and cut into the user rows and the item rows.
-/
import proofs.«177932_j9028021256887_1_alg».proof.Proof.ScaleSpec

noncomputable section

namespace Cert.KernelIdeal.KV

open Idealize.ShloMosaic Idealize.ShloMosaic.ValueIdx Cert.KernelIdeal Cert.KernelIdeal.Gen Cert.KernelIdeal.Scale

/-- Row 0 of the edge list as a vector of words: the target node of every edge. -/
def rowRaw (x3 : IVec S2x4000000 32) : IVec S4000000 32 :=
  shapeCast S4000000 (extractStridedSlice S1x4000000 ![0, 0] x3 slices_S2x4000000_S1x4000000_0_0) shapeCasts_S1x4000000_S4000000

/-- Row 1 of the edge list as a vector of words: the source node of every edge. -/
def colRaw (x3 : IVec S2x4000000 32) : IVec S4000000 32 :=
  shapeCast S4000000 (extractStridedSlice S1x4000000 ![1, 0] x3 slices_S2x4000000_S1x4000000_1_0) shapeCasts_S1x4000000_S4000000

/-- A vector of node words with the negative ones shifted up by 150000, as a column of start indices. -/
def nodeCol (v : IVec S4000000 32) : IVec S4000000x1 32 :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 150000#32))) v)

/-- The edge weights padded with zeros to 4005888 entries. -/
def padW (x2 : FVec Ideal S4000000 .f32) : FVec Ideal S4005888 .f32 :=
  pad S4005888 ![0] ![5888] ![0] x2 (sitofp (F := Ideal) .f32 (constantI S_ 32 0#32)) pads_S4000000_S4005888_058880 h_S_

/-- The embedding table, users above items, transposed: one column per node. -/
def embT (x0 : FVec Ideal S100000x64 .f32) (x1 : FVec Ideal S50000x64 .f32) : FVec Ideal S64x150000 .f32 :=
  transpose S64x150000 [1, 0]
    (concatenate S150000x64 0 [⟨S100000x64, x0⟩, ⟨S50000x64, x1⟩] concatenates_S100000x64_S50000x64_S150000x64_d0)
    transposes_S150000x64_S64x150000_1_0

/-- The columns of `T` named by the start indices `ci`, one per edge. -/
def gath (T : FVec Ideal S64x150000 .f32) (ci : IVec S4000000x1 32) : FVec Ideal S64x4000000 .f32 :=
  Host.gather gather_S64x150000_S4000000x1_S64x4000000_0_1_n_n_1_1_641 T ci

/-- 4000000 columns padded with zero columns to 4005888. -/
def padCols (G : FVec Ideal S64x4000000 .f32) : FVec Ideal S64x4005888 .f32 :=
  pad S64x4005888 ![0, 0] ![0, 5888] ![0, 0] G
    (sitofp (F := Ideal) .f32 (constantI S_ 32 0#32)) pads_S64x4000000_S64x4005888_000_058880 h_S_

/-- The gathered columns, padded. -/
def gpad (T : FVec Ideal S64x150000 .f32) (ci : IVec S4000000x1 32) : FVec Ideal S64x4005888 .f32 :=
  padCols (gath T ci)

/-- The scaled columns with the padding dropped. -/
def msgs (S : FVec Ideal S64x4005888 .f32) : FVec Ideal S64x4000000 .f32 :=
  extractStridedSlice S64x4000000 ![0, 0] S slices_S64x4005888_S64x4000000_0_0

/-- The message columns `U` added into the columns of a zero table named by the start indices `ri`. -/
def scat (ri : IVec S4000000x1 32) (U : FVec Ideal S64x4000000 .f32) : FVec Ideal S64x150000 .f32 :=
  Host.scatterAdd scatter_S64x150000_S4000000x1_S64x4000000_0_1_1_1
    (broadcastInDim S64x150000 ![] bcast_S_S64x150000 (constant (F := Ideal) S_ .f32 0x00000000#32)) ri U

/-- One layer: gather the source columns, scale by the weights, add into the target columns. -/
def layer (T : FVec Ideal S64x150000 .f32) (ri ci : IVec S4000000x1 32) (wp : FVec Ideal S4005888 .f32) :
    FVec Ideal S64x150000 .f32 :=
  scat ri (msgs (scaled (gpad T ci) wp))

/-- The mean of the table and the three layers' tables, transposed back to one row per node. -/
def meanT (T0 K1 K2 K3 : FVec Ideal S64x150000 .f32) : FVec Ideal S150000x64 .f32 :=
  transpose S150000x64 [1, 0]
    (Host.divf (addf (addf (addf T0 K1) K2) K3)
      (broadcastInDim S64x150000 ![] bcast_S_S64x150000 (constant (F := Ideal) S_ .f32 0x40800000#32)))
    transposes_S64x150000_S150000x64_1_0

/-- The user rows and the item rows of a table of all nodes. -/
def users (M : FVec Ideal S150000x64 .f32) : FVec Ideal S100000x64 .f32 :=
  extractStridedSlice S100000x64 ![0, 0] M slices_S150000x64_S100000x64_0_0
def items (M : FVec Ideal S150000x64 .f32) : FVec Ideal S50000x64 .f32 :=
  extractStridedSlice S50000x64 ![100000, 0] M slices_S150000x64_S50000x64_100000_0

end Cert.KernelIdeal.KV

end
-- ==== Proof.KerWalk.lean ====
/-
  The idealized kernel's buffers at each boundary between host stretches and launches, as functions of the arguments.

  The run's final contents are a fold: each stretch of host operations rewrites the buffers it writes, each launch
  leaves its output array at the scaled table and every other buffer alone. Walking the fold from the launch memory
  names, at every boundary, the few buffers a later stretch or launch still reads: the two index vectors, the padded
  weights, the running sum of tables, and the gathered columns or the launch's output.
-/
import proofs.«177932_j9028021256887_1_alg».proof.Proof.Gen.KernelIdeal.Frame
import proofs.«177932_j9028021256887_1_alg».proof.Proof.Region0
import proofs.«177932_j9028021256887_1_alg».proof.Proof.Region1
import proofs.«177932_j9028021256887_1_alg».proof.Proof.Region2
import proofs.«177932_j9028021256887_1_alg».proof.Proof.KerStages
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.KernelIdeal.Scale Cert.KernelIdeal.KV

variable (m : (ℓ : Loc nD τ sig) → Buf (Elt Ideal) ℓ) (ρ : Dev nD → PrngReg) (c : Dev nD)

/-- The four arguments as launched. -/
abbrev A0 : FVec Ideal S100000x64 .f32 := m ((c.tc : Thread nD τ).loc main_arg0)
abbrev A1 : FVec Ideal S50000x64 .f32 := m ((c.tc : Thread nD τ).loc main_arg1)
abbrev A2 : FVec Ideal S4000000 .f32 := m ((c.tc : Thread nD τ).loc main_arg2)
abbrev A3 : IVec S2x4000000 32 := m ((c.tc : Thread nD τ).loc main_arg3)
/-- The target and source index columns, the padded weights, the transposed table and the three layers' tables. -/
abbrev RI : IVec S4000000x1 32 := nodeCol (rowRaw (A3 m c))
abbrev CI : IVec S4000000x1 32 := nodeCol (colRaw (A3 m c))
abbrev WP : FVec Ideal S4005888 .f32 := padW (A2 m c)
abbrev T0 : FVec Ideal S64x150000 .f32 := embT (A0 m c) (A1 m c)
abbrev K1 : FVec Ideal S64x150000 .f32 := layer (T0 m c) (RI m c) (CI m c) (WP m c)
abbrev K2 : FVec Ideal S64x150000 .f32 := layer (K1 m c) (RI m c) (CI m c) (WP m c)
abbrev K3 : FVec Ideal S64x150000 .f32 := layer (K2 m c) (RI m c) (CI m c) (WP m c)

/-- The contents just before each of the three padding calls of the gathered columns. -/
def X3 : Valuation τ sig (Elt Ideal) := W3 m ρ c
def X6 : Valuation τ sig (Elt Ideal) := W6 m ρ c
def X9 : Valuation τ sig (Elt Ideal) := W9 m ρ c

/-! ## Before the first launch -/

set_option maxHeartbeats 4000000 in
theorem x3_v13 : X3 m ρ c (Proc.devRef .tc main_v13) = gath (T0 m c) (CI m c) := by
  show StableHlo.after hostOps0_2 (StableHlo.after hostOps0_1 (StableHlo.after hostOps0 (W0 m ρ c))) (Proc.devRef .tc main_v13) = _
  after_results_simp
  rfl
theorem x3_c2 : X3 m ρ c (Proc.devRef .tc main_c_2) = constantI S_ 32 0#32 := by
  show StableHlo.after hostOps0_2 (StableHlo.after hostOps0_1 (StableHlo.after hostOps0 (W0 m ρ c))) (Proc.devRef .tc main_c_2) = _
  after_results
theorem x3_v4 : X3 m ρ c (Proc.devRef .tc main_v4) = WP m c := by
  show StableHlo.after hostOps0_2 (StableHlo.after hostOps0_1 (StableHlo.after hostOps0 (W0 m ρ c))) (Proc.devRef .tc main_v4) = _
  after_results
  rfl
theorem x3_v6 : X3 m ρ c (Proc.devRef .tc main_v6) = T0 m c := by
  show StableHlo.after hostOps0_2 (StableHlo.after hostOps0_1 (StableHlo.after hostOps0 (W0 m ρ c))) (Proc.devRef .tc main_v6) = _
  after_results
  rfl
theorem x3_v1 : X3 m ρ c (Proc.devRef .tc main_v1) = rowRaw (A3 m c) := by
  show StableHlo.after hostOps0_2 (StableHlo.after hostOps0_1 (StableHlo.after hostOps0 (W0 m ρ c))) (Proc.devRef .tc main_v1) = _
  after_results
  rfl
theorem x3_v3 : X3 m ρ c (Proc.devRef .tc main_v3) = colRaw (A3 m c) := by
  show StableHlo.after hostOps0_2 (StableHlo.after hostOps0_1 (StableHlo.after hostOps0 (W0 m ρ c))) (Proc.devRef .tc main_v3) = _
  after_results
  rfl

theorem w4_v14 : W4 m ρ c (Proc.devRef .tc main_v14) = gpad (T0 m c) (CI m c) := by
  show StableHlo.after hostOps0_3 (X3 m ρ c) (Proc.devRef .tc main_v14) = _
  after_results
  simp only [TRef.toBuf, TRef.ofBuf, cast_eq]
  rw [x3_v13, x3_c2]
  rfl

theorem w4_v4 : W4 m ρ c (Proc.devRef .tc main_v4) = WP m c := by
  show StableHlo.after hostOps0_3 (X3 m ρ c) (Proc.devRef .tc main_v4) = _
  after_results
  exact x3_v4 m ρ c

theorem w4_v6 : W4 m ρ c (Proc.devRef .tc main_v6) = T0 m c := by
  show StableHlo.after hostOps0_3 (X3 m ρ c) (Proc.devRef .tc main_v6) = _
  after_results
  exact x3_v6 m ρ c

theorem w4_v1 : W4 m ρ c (Proc.devRef .tc main_v1) = rowRaw (A3 m c) := by
  show StableHlo.after hostOps0_3 (X3 m ρ c) (Proc.devRef .tc main_v1) = _
  after_results
  exact x3_v1 m ρ c

theorem w4_v3 : W4 m ρ c (Proc.devRef .tc main_v3) = colRaw (A3 m c) := by
  show StableHlo.after hostOps0_3 (X3 m ρ c) (Proc.devRef .tc main_v3) = _
  after_results
  exact x3_v3 m ρ c

/-! ## After the first launch -/

theorem w5_v15 : W5 m ρ c (Proc.devRef .tc main_v15) = scaled (gpad (T0 m c) (CI m c)) (WP m c) := by
  refine (W5_arr m ρ c 2).trans ?_
  refine (Reg0.out_eq (V4 m ρ) c).trans ?_
  show scaled (W4 m ρ c (Proc.devRef .tc main_v14)) (W4 m ρ c (Proc.devRef .tc main_v4)) = _
  rw [w4_v14, w4_v4]
theorem w5_v4 : W5 m ρ c (Proc.devRef .tc main_v4) = WP m c :=
  (W5_arr m ρ c 1).trans (((dat0 (V4 m ρ) c).arrAt_in 1 rfl cfg0.N).trans ((A_eq0 (V4 m ρ) c 1).trans (w4_v4 m ρ c)))
theorem w5_v6 : W5 m ρ c (Proc.devRef .tc main_v6) = T0 m c := (W5_of_ne m ρ c main_v6 (by decide)).trans (w4_v6 m ρ c)
theorem w5_v1 : W5 m ρ c (Proc.devRef .tc main_v1) = rowRaw (A3 m c) := (W5_of_ne m ρ c main_v1 (by decide)).trans (w4_v1 m ρ c)
theorem w5_v3 : W5 m ρ c (Proc.devRef .tc main_v3) = colRaw (A3 m c) := (W5_of_ne m ρ c main_v3 (by decide)).trans (w4_v3 m ρ c)

/-! ## Before the second launch -/

set_option maxHeartbeats 4000000 in
theorem x6_v32 : X6 m ρ c (Proc.devRef .tc main_v32) = gath (K1 m c) (CI m c) := by
  show StableHlo.after hostOps1 (W5 m ρ c) (Proc.devRef .tc main_v32) = _
  after_results_simp
  rw [w5_v15, w5_v1, w5_v3]
  rfl

theorem x6_c7 : X6 m ρ c (Proc.devRef .tc main_c_7) = constantI S_ 32 0#32 := by
  show StableHlo.after hostOps1 (W5 m ρ c) (Proc.devRef .tc main_c_7) = _
  after_results

set_option maxHeartbeats 4000000 in
theorem x6_v25 : X6 m ρ c (Proc.devRef .tc main_v25) = addf (T0 m c) (K1 m c) := by
  show StableHlo.after hostOps1 (W5 m ρ c) (Proc.devRef .tc main_v25) = _
  after_results_simp
  rw [w5_v15, w5_v1, w5_v6]
  rfl

theorem x6_v4 : X6 m ρ c (Proc.devRef .tc main_v4) = WP m c := by
  show StableHlo.after hostOps1 (W5 m ρ c) (Proc.devRef .tc main_v4) = _
  after_results
  exact w5_v4 m ρ c

theorem x6_v1 : X6 m ρ c (Proc.devRef .tc main_v1) = rowRaw (A3 m c) := by
  show StableHlo.after hostOps1 (W5 m ρ c) (Proc.devRef .tc main_v1) = _
  after_results
  exact w5_v1 m ρ c

theorem x6_v3 : X6 m ρ c (Proc.devRef .tc main_v3) = colRaw (A3 m c) := by
  show StableHlo.after hostOps1 (W5 m ρ c) (Proc.devRef .tc main_v3) = _
  after_results
  exact w5_v3 m ρ c

theorem w7_v33 : W7 m ρ c (Proc.devRef .tc main_v33) = gpad (K1 m c) (CI m c) := by
  show StableHlo.after hostOps1_1 (X6 m ρ c) (Proc.devRef .tc main_v33) = _
  after_results
  simp only [TRef.toBuf, TRef.ofBuf, cast_eq]
  rw [x6_v32, x6_c7]
  rfl

theorem w7_v25 : W7 m ρ c (Proc.devRef .tc main_v25) = addf (T0 m c) (K1 m c) := by
  show StableHlo.after hostOps1_1 (X6 m ρ c) (Proc.devRef .tc main_v25) = _
  after_results
  exact x6_v25 m ρ c

theorem w7_v4 : W7 m ρ c (Proc.devRef .tc main_v4) = WP m c := by
  show StableHlo.after hostOps1_1 (X6 m ρ c) (Proc.devRef .tc main_v4) = _
  after_results
  exact x6_v4 m ρ c

theorem w7_v1 : W7 m ρ c (Proc.devRef .tc main_v1) = rowRaw (A3 m c) := by
  show StableHlo.after hostOps1_1 (X6 m ρ c) (Proc.devRef .tc main_v1) = _
  after_results
  exact x6_v1 m ρ c

theorem w7_v3 : W7 m ρ c (Proc.devRef .tc main_v3) = colRaw (A3 m c) := by
  show StableHlo.after hostOps1_1 (X6 m ρ c) (Proc.devRef .tc main_v3) = _
  after_results
  exact x6_v3 m ρ c

/-! ## After the second launch -/

theorem w8_v34 : W8 m ρ c (Proc.devRef .tc main_v34) = scaled (gpad (K1 m c) (CI m c)) (WP m c) := by
  refine (W8_arr m ρ c 2).trans ?_
  refine (Reg1.out_eq (V7 m ρ) c).trans ?_
  show scaled (W7 m ρ c (Proc.devRef .tc main_v33)) (W7 m ρ c (Proc.devRef .tc main_v4)) = _
  rw [w7_v33, w7_v4]
theorem w8_v4 : W8 m ρ c (Proc.devRef .tc main_v4) = WP m c :=
  (W8_arr m ρ c 1).trans (((dat1 (V7 m ρ) c).arrAt_in 1 rfl cfg1.N).trans ((A_eq1 (V7 m ρ) c 1).trans (w7_v4 m ρ c)))
theorem w8_v25 : W8 m ρ c (Proc.devRef .tc main_v25) = addf (T0 m c) (K1 m c) := (W8_of_ne m ρ c main_v25 (by decide)).trans (w7_v25 m ρ c)
theorem w8_v1 : W8 m ρ c (Proc.devRef .tc main_v1) = rowRaw (A3 m c) := (W8_of_ne m ρ c main_v1 (by decide)).trans (w7_v1 m ρ c)
theorem w8_v3 : W8 m ρ c (Proc.devRef .tc main_v3) = colRaw (A3 m c) := (W8_of_ne m ρ c main_v3 (by decide)).trans (w7_v3 m ρ c)

/-! ## Before the third launch -/

set_option maxHeartbeats 4000000 in
theorem x9_v51 : X9 m ρ c (Proc.devRef .tc main_v51) = gath (K2 m c) (CI m c) := by
  show StableHlo.after hostOps2 (W8 m ρ c) (Proc.devRef .tc main_v51) = _
  after_results_simp
  rw [w8_v34, w8_v1, w8_v3]
  rfl

theorem x9_c13 : X9 m ρ c (Proc.devRef .tc main_c_13) = constantI S_ 32 0#32 := by
  show StableHlo.after hostOps2 (W8 m ρ c) (Proc.devRef .tc main_c_13) = _
  after_results

set_option maxHeartbeats 4000000 in
theorem x9_v44 : X9 m ρ c (Proc.devRef .tc main_v44) = addf (addf (T0 m c) (K1 m c)) (K2 m c) := by
  show StableHlo.after hostOps2 (W8 m ρ c) (Proc.devRef .tc main_v44) = _
  after_results_simp
  rw [w8_v34, w8_v1, w8_v25]
  rfl

theorem x9_v4 : X9 m ρ c (Proc.devRef .tc main_v4) = WP m c := by
  show StableHlo.after hostOps2 (W8 m ρ c) (Proc.devRef .tc main_v4) = _
  after_results
  exact w8_v4 m ρ c

theorem x9_v1 : X9 m ρ c (Proc.devRef .tc main_v1) = rowRaw (A3 m c) := by
  show StableHlo.after hostOps2 (W8 m ρ c) (Proc.devRef .tc main_v1) = _
  after_results
  exact w8_v1 m ρ c

theorem w10_v52 : W10 m ρ c (Proc.devRef .tc main_v52) = gpad (K2 m c) (CI m c) := by
  show StableHlo.after hostOps2_1 (X9 m ρ c) (Proc.devRef .tc main_v52) = _
  after_results
  simp only [TRef.toBuf, TRef.ofBuf, cast_eq]
  rw [x9_v51, x9_c13]
  rfl

theorem w10_v44 : W10 m ρ c (Proc.devRef .tc main_v44) = addf (addf (T0 m c) (K1 m c)) (K2 m c) := by
  show StableHlo.after hostOps2_1 (X9 m ρ c) (Proc.devRef .tc main_v44) = _
  after_results
  exact x9_v44 m ρ c

theorem w10_v4 : W10 m ρ c (Proc.devRef .tc main_v4) = WP m c := by
  show StableHlo.after hostOps2_1 (X9 m ρ c) (Proc.devRef .tc main_v4) = _
  after_results
  exact x9_v4 m ρ c

theorem w10_v1 : W10 m ρ c (Proc.devRef .tc main_v1) = rowRaw (A3 m c) := by
  show StableHlo.after hostOps2_1 (X9 m ρ c) (Proc.devRef .tc main_v1) = _
  after_results
  exact x9_v1 m ρ c

/-! ## After the third launch -/

theorem w11_v53 : W11 m ρ c (Proc.devRef .tc main_v53) = scaled (gpad (K2 m c) (CI m c)) (WP m c) := by
  refine (W11_arr m ρ c 2).trans ?_
  refine (Reg2.out_eq (V10 m ρ) c).trans ?_
  show scaled (W10 m ρ c (Proc.devRef .tc main_v52)) (W10 m ρ c (Proc.devRef .tc main_v4)) = _
  rw [w10_v52, w10_v4]
theorem w11_v44 : W11 m ρ c (Proc.devRef .tc main_v44) = addf (addf (T0 m c) (K1 m c)) (K2 m c) :=
  (W11_of_ne m ρ c main_v44 (by decide)).trans (w10_v44 m ρ c)
theorem w11_v1 : W11 m ρ c (Proc.devRef .tc main_v1) = rowRaw (A3 m c) := (W11_of_ne m ρ c main_v1 (by decide)).trans (w10_v1 m ρ c)

/-! ## The two results -/

set_option maxHeartbeats 4000000 in
theorem w12_v67 : W12 m ρ c (Proc.devRef .tc main_v67) = users (meanT (T0 m c) (K1 m c) (K2 m c) (K3 m c)) := by
  show StableHlo.after hostOps3 (W11 m ρ c) (Proc.devRef .tc main_v67) = _
  after_results_simp
  rw [w11_v53, w11_v1, w11_v44]
  rfl
set_option maxHeartbeats 4000000 in
theorem w12_v68 : W12 m ρ c (Proc.devRef .tc main_v68) = items (meanT (T0 m c) (K1 m c) (K2 m c) (K3 m c)) := by
  show StableHlo.after hostOps3 (W11 m ρ c) (Proc.devRef .tc main_v68) = _
  after_results_simp
  rw [w11_v53, w11_v1, w11_v44]
  rfl

end Cert.KernelIdeal.Walk

end
-- ==== Proof.LibCols.lean ====
/-
  Column-indexed gather and accumulating scatter read at an index.

  A table `[C, N]` whose columns are the records (the transposed layout of a table of rows) is gathered,
  or accumulated into, by a column `[M, 1]` of start indices, one signed word per gathered or added
  column. The gather reads column `idx[e]`, read signed and clamped into range, into column `e` of the
  result; the scatter adds to entry `(k, n)` the updates `(k, e)` whose start word, read signed, is `n`.
-/
import Idealize.ShloMosaic.PureOps.Ideal
import Idealize.ShloMosaic.Lib.ValueIdx

noncomputable section

open scoped BigOperators

namespace Cert.Cols

open Idealize.ShloMosaic Idealize.ShloMosaic.ValueIdx

/-! Facts about axis numbers, decided once at the literal rank. -/
private theorem fin2_zero_ne_one : (0 : Fin 2) ≠ 1 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole columns of a rank-2 table `[C, N]` at a column `[M, 1]` of start indices. -/
abbrev gatherC (C N M : Nat)
    (wf : GatherDims.WF ⟨2, ![C, N]⟩ ⟨2, ![M, 1]⟩ ⟨2, ![C, M]⟩ [0] [1] [] [1] [] 1 ![C, 1]) :
    GatherDims ⟨2, ![C, N]⟩ ⟨2, ![M, 1]⟩ ⟨2, ![C, M]⟩ where
  offsetDims := [0]
  collapsedSliceDims := [1]
  operandBatchingDims := []
  startIndicesBatchingDims := []
  startIndexMap := [1]
  indexVectorDim := 1
  sliceSizes := ![C, 1]
  wf := wf

/-- The gather of columns at `(a, e)`: the table at row `a` of the column the start word `idx[e, 0]`
    names, read signed and clamped into `[0, N − 1]`. -/
theorem gatherC_apply {α : Type} {C N M w : Nat} (hN : 0 < N)
    (wf : GatherDims.WF ⟨2, ![C, N]⟩ ⟨2, ![M, 1]⟩ ⟨2, ![C, M]⟩ [0] [1] [] [1] [] 1 ![C, 1])
    (x : (⟨2, ![C, N]⟩ : Shape).Idx → α) (idx : IVec ⟨2, ![M, 1]⟩ w) (a : Fin C) (e : Fin M) :
    Host.gather (gatherC C N M wf) x idx (ix2 a e)
      = x (ix2 a (⟨min (idx (ix2 e (0 : Fin 1))).toInt.toNat (N - 1), by omega⟩ : Fin N)) := by
  unfold Host.gather
  congr 1
  funext ax
  refine Fin.ext ?_
  match ax with
  | ⟨0, _⟩ =>
    show (gatherC C N M wf).start (ix2 a e) idx 0 + (gatherC C N M wf).batchCoord (ix2 a e) 0
      + (gatherC C N M wf).offCoord (ix2 a e) 0 = _
    rw [GatherDims.batchCoord_eq_zero _ _ _ List.not_mem_nil]
    unfold GatherDims.start
    rw [dif_neg (show (0 : Fin 2) ∉ (gatherC C N M wf).startIndexMap from fun h => fin2_zero_ne_one (List.mem_singleton.mp h))]
    unfold GatherDims.offCoord
    rw [dif_pos (show (0 : Fin 2) ∈ (gatherC C N M wf).sKept from (GatherDims.mem_sKept _ _).2 ⟨fun h => fin2_zero_ne_one (List.mem_singleton.mp h), List.not_mem_nil⟩)]
    simp only [Nat.zero_add, Nat.add_zero]
    rfl
  | ⟨1, _⟩ =>
    show (gatherC C N M wf).start (ix2 a e) idx 1 + (gatherC C N M wf).batchCoord (ix2 a e) 1
      + (gatherC C N M wf).offCoord (ix2 a e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gatherC C N M wf).startIndexMap from List.mem_singleton.mpr rfl)]
    have hsi : (gatherC C N M wf).siIdx (ix2 a e) ⟨List.idxOf (1 : Fin 2) (gatherC C N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of columns `[C, M]` into a rank-2 table `[C, N]` at a column `[M, 1]` of start indices. -/
abbrev scatterC (C N M : Nat)
    (wf : ScatterDims.WF ⟨2, ![C, N]⟩ ⟨2, ![M, 1]⟩ ⟨2, ![C, M]⟩ [0] [1] [1] 1) :
    ScatterDims ⟨2, ![C, N]⟩ ⟨2, ![M, 1]⟩ ⟨2, ![C, M]⟩ where
  updateWindowDims := [0]
  insertedWindowDims := [1]
  scatterDimsToOperandDims := [1]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(c, e)` lands on `(k, n)` exactly when `c = k` and its start word, read signed, is `n`:
    axis 0 starts at 0 and has window coordinate `c`, axis 1 starts at the word and has window
    coordinate 0 (it is an inserted axis). -/
theorem scatterC_resultIdx {C N M w : Nat}
    (wf : ScatterDims.WF ⟨2, ![C, N]⟩ ⟨2, ![M, 1]⟩ ⟨2, ![C, M]⟩ [0] [1] [1] 1)
    (idx : IVec ⟨2, ![M, 1]⟩ w) (c : Fin C) (e : Fin M) (k : Fin C) (n : Fin N) :
    (scatterC C N M wf).resultIdx? (ix2 c e) idx = some (ix2 k n)
      ↔ (idx (ix2 e (0 : Fin 1))).toInt = (n.val : ℤ) ∧ c = k := by
  have hs1 : (scatterC C N M wf).start (ix2 c e) idx (1 : Fin 2) = (idx (ix2 e (0 : Fin 1))).toInt := by
    unfold ScatterDims.start
    rw [dif_pos (show (1 : Fin 2) ∈ (scatterC C N M wf).scatterDimsToOperandDims from List.mem_singleton.mpr rfl)]
    have hsi : (scatterC C N M wf).siIdx (ix2 c e) ⟨List.idxOf (1 : Fin 2) (scatterC C N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw1 : (scatterC C N M wf).window (ix2 c e) (1 : Fin 2) = 0 := by
    unfold ScatterDims.window
    rw [dif_neg (fun h => (mem_kept _ _).1 h (List.mem_singleton.mpr rfl))]
  have hs0 : (scatterC C N M wf).start (ix2 c e) idx (0 : Fin 2) = 0 := by
    unfold ScatterDims.start
    rw [dif_neg (fun h => fin2_zero_ne_one (List.mem_singleton.mp h))]
  have hw0 : (scatterC C N M wf).window (ix2 c e) (0 : Fin 2) = c.val := by
    unfold ScatterDims.window
    rw [dif_pos (show (0 : Fin 2) ∈ (scatterC C N M wf).sKept from
      (mem_kept _ _).2 (fun h => fin2_zero_ne_one (List.mem_singleton.mp h)))]
    rfl
  rw [resultIdx?_eq_some_iff]
  constructor
  · intro h
    have h0 := h (0 : Fin 2)
    have h1 := h (1 : Fin 2)
    rw [hs0, hw0] at h0
    rw [hs1, hw1] at h1
    have h1' : (idx (ix2 e (0 : Fin 1))).toInt + ((0 : ℕ) : ℤ) = (n.val : ℤ) := h1
    have h0' : (0 : ℤ) + (c.val : ℤ) = (k.val : ℤ) := h0
    refine ⟨by simpa using h1', Fin.ext ?_⟩
    have : (c.val : ℤ) = (k.val : ℤ) := by simpa using h0'
    exact_mod_cast this
  · rintro ⟨h1, rfl⟩ a
    match a with
    | ⟨0, _⟩ =>
      show (scatterC C N M wf).start (ix2 c e) idx (0 : Fin 2)
        + ((scatterC C N M wf).window (ix2 c e) (0 : Fin 2) : ℤ) = (c.val : ℤ)
      rw [hs0, hw0]; simp
    | ⟨1, _⟩ =>
      show (scatterC C N M wf).start (ix2 c e) idx (1 : Fin 2)
        + ((scatterC C N M wf).window (ix2 c e) (1 : Fin 2) : ℤ) = (n.val : ℤ)
      rw [hs1, hw1, h1]; simp

/-- The accumulated table at `(k, n)`: the operand there plus the updates `(k, e)` of the columns `e`
    whose start word, read signed, is `n`. -/
theorem scatterAddC_apply {C N M w : Nat}
    (wf : ScatterDims.WF ⟨2, ![C, N]⟩ ⟨2, ![M, 1]⟩ ⟨2, ![C, M]⟩ [0] [1] [1] 1)
    (x : (⟨2, ![C, N]⟩ : Shape).Idx → EReal) (idx : IVec ⟨2, ![M, 1]⟩ w)
    (upd : (⟨2, ![C, M]⟩ : Shape).Idx → EReal) (k : Fin C) (n : Fin N) :
    Ideal.hostScatterAdd (scatterC C N M wf) x idx upd (ix2 k n)
      = x (ix2 k n) + ∑ e : Fin M, if (idx (ix2 e (0 : Fin 1))).toInt = (n.val : ℤ) then upd (ix2 k e) else 0 := by
  unfold Ideal.hostScatterAdd
  congr 1
  rw [Finset.sum_filter, sum_idx2, Finset.sum_comm]
  refine Finset.sum_congr rfl fun e _ => ?_
  simp only [scatterC_resultIdx]
  by_cases h : (idx (ix2 e (0 : Fin 1))).toInt = (n.val : ℤ)
  · simp [h]
  · simp [h]

end Cert.Cols

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibScatterHost.lean ====
/-
  The host's accumulating float scatter, read at an index of the exact instance.

  At the exact instance the host's scatter with an `add` body is the operand plus the sum of the updates landing on
  each entry; for a table of rows, and for a table of columns, indexed by a column of start indices this is the
  operand entry plus the updates of the rows (columns) whose start word, read signed, names the entry's row (column).
-/
import Idealize.ShloMosaic.PureOps.Ideal
import Idealize.ShloMosaic.Lib.ValueIdx
import proofs.«177932_j9028021256887_1_alg».proof.Proof.LibRows
import proofs.«177932_j9028021256887_1_alg».proof.Proof.LibCols

noncomputable section

open scoped BigOperators

namespace Cert.ScatterHost

open Idealize.ShloMosaic Idealize.ShloMosaic.ValueIdx

/-- Rows `[M, C]` accumulated into a table `[N, C]`, read at `(n, k)`. -/
theorem scatterAddRows_apply {φ : FTy} {N C M w : Nat}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (n : Fin N) (k : Fin C) :
    Host.scatterAdd (F := Ideal) (Cert.Rows.scatter2 N C M wf) x idx upd (ix2 n k)
      = x (ix2 n k) + ∑ e : Fin M, if (idx (ix2 e (0 : Fin 1))).toInt = (n.val : ℤ) then upd (ix2 e k) else 0 :=
  Cert.Rows.scatterAdd2_apply wf x idx upd n k

/-- Columns `[C, M]` accumulated into a table `[C, N]`, read at `(k, n)`. -/
theorem scatterAddCols_apply {φ : FTy} {C N M w : Nat}
    (wf : ScatterDims.WF ⟨2, ![C, N]⟩ ⟨2, ![M, 1]⟩ ⟨2, ![C, M]⟩ [0] [1] [1] 1)
    (x : FVec Ideal ⟨2, ![C, N]⟩ φ) (idx : IVec ⟨2, ![M, 1]⟩ w) (upd : FVec Ideal ⟨2, ![C, M]⟩ φ) (k : Fin C) (n : Fin N) :
    Host.scatterAdd (F := Ideal) (Cert.Cols.scatterC C N M wf) x idx upd (ix2 k n)
      = x (ix2 k n) + ∑ e : Fin M, if (idx (ix2 e (0 : Fin 1))).toInt = (n.val : ℤ) then upd (ix2 k e) else 0 :=
  Cert.Cols.scatterAddC_apply wf x idx upd k n

end Cert.ScatterHost

end
-- ==== Proof.EdgeSum.lean ====
/-
  One layer of the graph convolution at one node and one feature.

  Every edge `e` carries a target word `ri(e)`, a source word `ci(e)` and a weight `x(e)`. The layer's value at node `n`
  is the initial value `z` plus, over the edges whose target word read signed is `n`, the feature of the edge's source
  node — its word read signed and clamped into `[0, 149999]` — times the edge's weight.
-/
import Idealize.ShloMosaic.PureOps.Ideal
import Idealize.ShloMosaic.Lib.ValueIdx

noncomputable section

open scoped BigOperators

namespace Cert.Edge

open Idealize.ShloMosaic Idealize.ShloMosaic.ValueIdx

/-- The layer at node `n` from one feature `col` of all nodes. -/
def edgeSum (z : EReal) (ri ci : (⟨2, ![4000000, 1]⟩ : Shape).Idx → BitVec 32) (x : (⟨1, ![4000000]⟩ : Shape).Idx → EReal)
    (col : Fin 150000 → EReal) (n : Fin 150000) : EReal :=
  z + ∑ e : Fin 4000000, if (ri (ix2 e (0 : Fin 1))).toInt = (n.val : ℤ)
    then col (⟨min (ci (ix2 e (0 : Fin 1))).toInt.toNat (150000 - 1), by omega⟩ : Fin 150000) * x (ix1 e) else 0

end Cert.Edge

end
-- ==== Proof.KerLayer.lean ====
/-
  One layer of the idealized kernel read at a feature and a node.

  At feature `d` and node `n` the layer's table holds zero plus, over the edges whose target is `n`, entry `d` of the
  source node's column times the edge's weight: the zero padding of the gathered columns and of the weights lies
  beyond column 3999999 and is dropped again before the columns are added in, so it never meets a sum.
-/
import proofs.«177932_j9028021256887_1_alg».proof.Proof.KerStages
import proofs.«177932_j9028021256887_1_alg».proof.Proof.LibCols
import proofs.«177932_j9028021256887_1_alg».proof.Proof.LibScatterHost
import proofs.«177932_j9028021256887_1_alg».proof.Proof.EdgeSum
import Idealize.ShloMosaic.Lib.KernelVsHost
import Idealize.ShloMosaic.Lib.ValueLayout

noncomputable section

open scoped BigOperators

namespace Cert.KernelIdeal.KV

open Idealize.ShloMosaic Idealize.ShloMosaic.ValueIdx Cert.KernelIdeal Cert.KernelIdeal.Gen Cert.KernelIdeal.Scale Cert.Edge

/-- Column `e` of the 4000000 edge columns, as one of the 4005888 padded columns. -/
abbrev up (e : Fin 4000000) : Fin 4005888 := ⟨e.val, by omega⟩

/-- The padded weights at an edge are the edge's weight. -/
theorem padW_apply (x2 : FVec Ideal S4000000 .f32) (e : Fin 4000000) : padW x2 (ix1 (up e)) = x2 (ix1 e) := by
  unfold padW
  refine pad_apply_of_inside _ _ _ _ _ _ _ (ix1 (up e)) (ix1 e) fun a => ?_
  match a with
  | ⟨0, _⟩ => show e.val = 0 + e.val * (0 + 1); omega

/-- The padded gathered columns at an edge are the source node's column. -/
theorem gpad_apply (T : FVec Ideal S64x150000 .f32) (ci : IVec S4000000x1 32) (d : Fin 64) (e : Fin 4000000) :
    gpad T ci (ix2 d (up e))
      = T (ix2 d (⟨min (ci (ix2 e (0 : Fin 1))).toInt.toNat (150000 - 1), by omega⟩ : Fin 150000)) := by
  unfold gpad padCols gath
  refine (pad_apply_of_inside _ _ _ _ _ _ _ (ix2 d (up e)) (ix2 d e) fun a => ?_).trans ?_
  · match a with
    | ⟨0, _⟩ => show d.val = 0 + d.val * (0 + 1); omega
    | ⟨1, _⟩ => show e.val = 0 + e.val * (0 + 1); omega
  · exact Cert.Cols.gatherC_apply (by norm_num) gather_S64x150000_S4000000x1_S64x4000000_0_1_n_n_1_1_641_wf T ci d e

/-- A message column at feature `d` and edge `e`: entry `d` of the source node's column times the edge's weight. -/
theorem msgs_apply (T : FVec Ideal S64x150000 .f32) (ci : IVec S4000000x1 32) (x2 : FVec Ideal S4000000 .f32)
    (d : Fin 64) (e : Fin 4000000) :
    msgs (scaled (gpad T ci) (padW x2)) (ix2 d e)
      = T (ix2 d (⟨min (ci (ix2 e (0 : Fin 1))).toInt.toNat (150000 - 1), by omega⟩ : Fin 150000)) * x2 (ix1 e) := by
  unfold msgs
  refine (slice2_axis1_apply 0 _ _ d e (up e) (by show e.val = 0 + e.val; omega)).trans ?_
  rw [scaled_apply, gpad_apply, padW_apply]

/-- The zero table reads the zero word everywhere. -/
theorem zeroT_apply (d : Fin 64) (n : Fin 150000) :
    broadcastInDim S64x150000 ![] bcast_S_S64x150000 (constant (F := Ideal) S_ .f32 0x00000000#32) (ix2 d n)
      = Ideal.ofBits .f32 0x00000000#32 :=
  broadcastInDim_apply _ bcast_S_S64x150000 _ (ix2 d n) ix0 (fun a => a.elim0)

/-- The accumulated zero table at feature `d` and node `n`: zero plus the message columns of the edges whose target is `n`. -/
theorem scat_apply (ri : IVec S4000000x1 32) (U : FVec Ideal S64x4000000 .f32) (d : Fin 64) (n : Fin 150000) :
    scat ri U (ix2 d n) = Ideal.ofBits .f32 0x00000000#32
      + ∑ e : Fin 4000000, if (ri (ix2 e (0 : Fin 1))).toInt = (n.val : ℤ) then U (ix2 d e) else 0 := by
  have hd : scatter_S64x150000_S4000000x1_S64x4000000_0_1_1_1
      = Cert.Cols.scatterC 64 150000 4000000 scatter_S64x150000_S4000000x1_S64x4000000_0_1_1_1_wf := rfl
  unfold scat
  rw [hd, Cert.ScatterHost.scatterAddCols_apply, zeroT_apply]

/-- The layer at feature `d` and node `n`. -/
theorem layer_apply (T : FVec Ideal S64x150000 .f32) (ri ci : IVec S4000000x1 32) (x2 : FVec Ideal S4000000 .f32)
    (d : Fin 64) (n : Fin 150000) :
    layer T ri ci (padW x2) (ix2 d n)
      = edgeSum (Ideal.ofBits .f32 0x00000000#32) ri ci x2 (fun k => T (ix2 d k)) n := by
  unfold layer edgeSum
  rw [scat_apply]
  refine congrArg (fun f : Fin 4000000 → EReal => Ideal.ofBits .f32 0x00000000#32 + ∑ e, f e) (funext fun e => ?_)
  rw [msgs_apply]

end Cert.KernelIdeal.KV

end
-- ==== Proof.RefStages.lean ====
/-
  One layer of the idealized reference read at a node and a feature.

  The reference keeps the table `[150000, 64]`: one row per node. A layer gathers, for every edge, the row of the
  edge's source node, scales it by the edge's weight and adds it into the row of the edge's target node of a zero
  table. Its three layers are the same function of the previous table, the two index columns and the weights.
-/
import proofs.«177932_j9028021256887_1_alg».proof.Proof.Gen.ReferenceIdeal.Read
import proofs.«177932_j9028021256887_1_alg».proof.Proof.LibRows
import proofs.«177932_j9028021256887_1_alg».proof.Proof.LibScatterHost
import proofs.«177932_j9028021256887_1_alg».proof.Proof.EdgeSum
import Idealize.ShloMosaic.Lib.ValueLayout

noncomputable section

open scoped BigOperators

namespace Cert.ReferenceIdeal.RV

open Idealize.ShloMosaic Idealize.ShloMosaic.ValueIdx Cert.ReferenceIdeal Cert.ReferenceIdeal.Gen Cert.ReferenceIdeal.Read Cert.Edge

/-- One layer: gather the source rows, scale by the weights, add into the target rows. -/
def layerR (T : FVec Ideal S150000x64 .f32) (ri ci : IVec S4000000x1 32) (x2 : FVec Ideal S4000000 .f32) :
    FVec Ideal S150000x64 .f32 :=
  Host.scatterAdd scatter_S150000x64_S4000000x1_S4000000x64_1_0_0_1 (val_main_v15 (F := Ideal)) ri
    (mulf (Host.gather gather_S150000x64_S4000000x1_S4000000x64_1_0_n_n_0_1_164 T ci) (val_main_v13 (F := Ideal) x2))

variable (x0 : FVec Ideal S100000x64 .f32) (x1 : FVec Ideal S50000x64 .f32) (x2 : FVec Ideal S4000000 .f32) (x3 : IVec S2x4000000 32)

/-- The three layers' tables are `layerR` of the table before them. -/
theorem v22_eq : val_main_v22 (F := Ideal) x0 x1 x2 x3
    = layerR (val_main_v4 (F := Ideal) x0 x1) (val_main_v21 (F := Ideal) x3) (val_main_v10 (F := Ideal) x3) x2 := rfl
theorem v41_eq : val_main_v41 (F := Ideal) x0 x1 x2 x3
    = layerR (val_main_v22 (F := Ideal) x0 x1 x2 x3) (val_main_v21 (F := Ideal) x3) (val_main_v10 (F := Ideal) x3) x2 := rfl
theorem v60_eq : val_main_v60 (F := Ideal) x0 x1 x2 x3
    = layerR (val_main_v41 (F := Ideal) x0 x1 x2 x3) (val_main_v21 (F := Ideal) x3) (val_main_v10 (F := Ideal) x3) x2 := rfl

/-- The weights spread over the 64 features read the edge's weight. -/
theorem weights_apply (e : Fin 4000000) (d : Fin 64) : val_main_v13 (F := Ideal) x2 (ix2 e d) = x2 (ix1 e) := by
  rw [val_main_v13_apply, val_main_v12_apply]
  exact congrArg x2 (funext fun a => Fin.ext (by match a with | ⟨0, _⟩ => rfl))

/-- The zero table reads the zero word everywhere. -/
theorem zero_apply (i : S150000x64.Idx) : val_main_v15 (F := Ideal) i = Ideal.ofBits .f32 0x00000000#32 := by
  rw [val_main_v15_apply]; rfl

/-- The layer at node `n` and feature `d`. -/
theorem layerR_apply (T : FVec Ideal S150000x64 .f32) (ri ci : IVec S4000000x1 32) (n : Fin 150000) (d : Fin 64) :
    layerR T ri ci x2 (ix2 n d)
      = edgeSum (Ideal.ofBits .f32 0x00000000#32) ri ci x2 (fun k => T (ix2 k d)) n := by
  have hd : scatter_S150000x64_S4000000x1_S4000000x64_1_0_0_1
      = Cert.Rows.scatter2 150000 64 4000000 scatter_S150000x64_S4000000x1_S4000000x64_1_0_0_1_wf := rfl
  unfold layerR edgeSum
  rw [hd, Cert.ScatterHost.scatterAddRows_apply, zero_apply]
  refine congrArg (fun f : Fin 4000000 → EReal => Ideal.ofBits .f32 0x00000000#32 + ∑ e, f e) (funext fun e => ?_)
  rw [mulf_apply, weights_apply]
  have hg : Host.gather gather_S150000x64_S4000000x1_S4000000x64_1_0_n_n_0_1_164 T ci (ix2 e d)
      = T (ix2 (⟨min (ci (ix2 e (0 : Fin 1))).toInt.toNat (150000 - 1), by omega⟩ : Fin 150000) d) :=
    Cert.Rows.gather2_apply (by norm_num) gather_S150000x64_S4000000x1_S4000000x64_1_0_n_n_0_1_164_wf T ci e d
  rw [hg]

end Cert.ReferenceIdeal.RV

end
-- ==== Proof.Bridge.lean ====
/-
  The idealized kernel and the idealized reference compute one function.

  The kernel's table is the reference's transposed: entry `(d, n)` of the one is entry `(n, d)` of the other. A
  layer preserves this: at feature `d` and node `n` both add, over the edges whose target is `n`, feature `d` of the
  edge's source node times the edge's weight — the same sum over the same edges, term by term, since both read the
  same two index columns and clamp the source word the same way. So the three layers' tables, their sum with the
  table, and its quotient by four agree entry by entry, and transposing back gives the reference's table.
-/
import proofs.«177932_j9028021256887_1_alg».proof.Proof.KerLayer
import proofs.«177932_j9028021256887_1_alg».proof.Proof.RefStages

noncomputable section

namespace Cert.Bridge

open Idealize.ShloMosaic Idealize.ShloMosaic.ValueIdx Cert.Edge
open Cert.KernelIdeal.KV (nodeCol rowRaw colRaw padW embT layer meanT users items layer_apply)
open Cert.ReferenceIdeal.RV (layerR layerR_apply v22_eq v41_eq v60_eq)
open Cert.ReferenceIdeal.Read

variable (x0 : FVec Ideal Cert.KernelIdeal.S100000x64 .f32) (x1 : FVec Ideal Cert.KernelIdeal.S50000x64 .f32)
  (x2 : FVec Ideal Cert.KernelIdeal.S4000000 .f32) (x3 : IVec Cert.KernelIdeal.S2x4000000 32)

/-- Both programs compute the target and the source index columns by the same operations of the edge list. -/
theorem ri_eq : val_main_v21 (F := Ideal) x3 = nodeCol (rowRaw x3) := rfl
theorem ci_eq : val_main_v10 (F := Ideal) x3 = nodeCol (colRaw x3) := rfl

/-- The kernel's table is the reference's, transposed. -/
theorem table_eq (d : Fin 64) (n : Fin 150000) : embT x0 x1 (ix2 d n) = val_main_v4 (F := Ideal) x0 x1 (ix2 n d) := by
  unfold embT
  exact transpose_ix2_apply _ _ d n

/-- A layer of the kernel on a transposed table is the reference's layer, transposed. -/
theorem layer_eq (T : FVec Ideal Cert.KernelIdeal.S64x150000 .f32) (T' : FVec Ideal Cert.ReferenceIdeal.S150000x64 .f32)
    (hT : ∀ (d : Fin 64) (n : Fin 150000), T (ix2 d n) = T' (ix2 n d)) (d : Fin 64) (n : Fin 150000) :
    layer T (nodeCol (rowRaw x3)) (nodeCol (colRaw x3)) (padW x2) (ix2 d n)
      = layerR T' (val_main_v21 (F := Ideal) x3) (val_main_v10 (F := Ideal) x3) x2 (ix2 n d) := by
  rw [layer_apply, layerR_apply, ri_eq, ci_eq]
  exact congrArg (fun col => edgeSum (Ideal.ofBits .f32 0x00000000#32) (nodeCol (rowRaw x3)) (nodeCol (colRaw x3)) x2 col n)
    (funext fun k => hT d k)

/-- The three layers' tables of the kernel. -/
abbrev k1 : FVec Ideal Cert.KernelIdeal.S64x150000 .f32 := layer (embT x0 x1) (nodeCol (rowRaw x3)) (nodeCol (colRaw x3)) (padW x2)
abbrev k2 : FVec Ideal Cert.KernelIdeal.S64x150000 .f32 := layer (k1 x0 x1 x2 x3) (nodeCol (rowRaw x3)) (nodeCol (colRaw x3)) (padW x2)
abbrev k3 : FVec Ideal Cert.KernelIdeal.S64x150000 .f32 := layer (k2 x0 x1 x2 x3) (nodeCol (rowRaw x3)) (nodeCol (colRaw x3)) (padW x2)

theorem k1_eq (d : Fin 64) (n : Fin 150000) : k1 x0 x1 x2 x3 (ix2 d n) = val_main_v22 (F := Ideal) x0 x1 x2 x3 (ix2 n d) := by
  rw [v22_eq]; exact layer_eq x2 x3 _ _ (table_eq x0 x1) d n
theorem k2_eq (d : Fin 64) (n : Fin 150000) : k2 x0 x1 x2 x3 (ix2 d n) = val_main_v41 (F := Ideal) x0 x1 x2 x3 (ix2 n d) := by
  rw [v41_eq]; exact layer_eq x2 x3 _ _ (k1_eq x0 x1 x2 x3) d n
theorem k3_eq (d : Fin 64) (n : Fin 150000) : k3 x0 x1 x2 x3 (ix2 d n) = val_main_v60 (F := Ideal) x0 x1 x2 x3 (ix2 n d) := by
  rw [v60_eq]; exact layer_eq x2 x3 _ _ (k2_eq x0 x1 x2 x3) d n

/-- The divisor table reads the word of 4 everywhere, in both programs. -/
theorem four_eq (d : Fin 64) (n : Fin 150000) :
    broadcastInDim Cert.KernelIdeal.S64x150000 ![] Cert.KernelIdeal.Facts₀.bcast_S_S64x150000
        (constant (F := Ideal) Cert.KernelIdeal.S_ .f32 0x40800000#32) (ix2 d n)
      = val_main_v62 (F := Ideal) (ix2 n d) := by
  rw [val_main_v62_apply]
  exact broadcastInDim_apply _ Cert.KernelIdeal.Facts₀.bcast_S_S64x150000 _ (ix2 d n) ix0 (fun a => a.elim0)

/-- The mean of the four tables, transposed back, is the reference's mean. -/
theorem mean_eq : meanT (embT x0 x1) (k1 x0 x1 x2 x3) (k2 x0 x1 x2 x3) (k3 x0 x1 x2 x3)
    = val_main_v63 (F := Ideal) x0 x1 x2 x3 := by
  funext i
  obtain ⟨n, d, rfl⟩ : ∃ (n : Fin 150000) (d : Fin 64), i = ix2 n d := ⟨i 0, i 1, eq_ix2 i⟩
  unfold meanT
  rw [transpose_ix2_apply, val_main_v63_apply, val_main_v61_apply, val_main_v42_apply, val_main_v23_apply,
    ← four_eq d n, ← table_eq x0 x1 d n, ← k1_eq x0 x1 x2 x3 d n, ← k2_eq x0 x1 x2 x3 d n, ← k3_eq x0 x1 x2 x3 d n]
  rfl

/-- The user rows and the item rows of the two programs' results. -/
theorem users_eq : users (meanT (embT x0 x1) (k1 x0 x1 x2 x3) (k2 x0 x1 x2 x3) (k3 x0 x1 x2 x3))
    = val_main_v64 (F := Ideal) x0 x1 x2 x3 := by
  rw [mean_eq]; rfl
theorem items_eq : items (meanT (embT x0 x1) (k1 x0 x1 x2 x3) (k2 x0 x1 x2 x3) (k3 x0 x1 x2 x3))
    = val_main_v65 (F := Ideal) x0 x1 x2 x3 := by
  rw [mean_eq]; rfl

end Cert.Bridge

end
-- ==== Proof.lean ====
/-
  The certificate: a three-layer graph convolution computed on a transposed table, with the per-edge scaling on the
  vector unit, against the same convolution on the table of rows.

  Both programs normalise the edge list's node words the same way, gather the source node's features for every edge,
  scale them by the edge's weight and add them into the target node's features, three times over, then average the
  four tables. The kernel works on the transposed table, pads the edge axis with zeros to a whole number of blocks
  for its launches and drops the padding again; none of that changes any sum over the edges. Neither side's terms are
  rearranged, so the equality needs no finiteness of the inputs.
-/
import proofs.«177932_j9028021256887_1_alg».proof.Defs
import proofs.«177932_j9028021256887_1_alg».proof.Proof.Gen.Kernel
import proofs.«177932_j9028021256887_1_alg».proof.Proof.Gen.Kernel.Skeleton
import proofs.«177932_j9028021256887_1_alg».proof.Proof.Gen.Kernel.Launch
import proofs.«177932_j9028021256887_1_alg».proof.Proof.Gen.Kernel.Points
import proofs.«177932_j9028021256887_1_alg».proof.Proof.Gen.Kernel.Frame
import proofs.«177932_j9028021256887_1_alg».proof.Proof.Gen.KernelIdeal
import proofs.«177932_j9028021256887_1_alg».proof.Proof.Gen.KernelIdeal.Skeleton
import proofs.«177932_j9028021256887_1_alg».proof.Proof.Gen.KernelIdeal.Launch
import proofs.«177932_j9028021256887_1_alg».proof.Proof.Gen.KernelIdeal.Points
import proofs.«177932_j9028021256887_1_alg».proof.Proof.Gen.KernelIdeal.Frame
import proofs.«177932_j9028021256887_1_alg».proof.Proof.Gen.ReferenceIdeal
import proofs.«177932_j9028021256887_1_alg».proof.Proof.Gen.Pre_finite_inputs
import proofs.«177932_j9028021256887_1_alg».proof.Proof.Gen.ReferenceIdeal.Run
import proofs.«177932_j9028021256887_1_alg».proof.Proof.Gen.ReferenceIdeal.Read
import proofs.«177932_j9028021256887_1_alg».proof.Proof.KerRun
import proofs.«177932_j9028021256887_1_alg».proof.Proof.KerWalk
import proofs.«177932_j9028021256887_1_alg».proof.Proof.Bridge
import Idealize.ShloMosaic.Adequacy
import Idealize.ShloMosaic.Init

noncomputable section

namespace Cert.Proof

open Idealize.ShloMosaic Idealize.SL.Sem

/-- The word-level kernel and its idealization run, fault nothing and keep their arguments: the generated frames. -/
theorem frame_k : Cert.frame_Kernel := fun m ρ _ => Cert.Kernel.Gen.frame m ρ
theorem frame_ki : Cert.frame_KernelIdeal := fun m ρ _ => Cert.KernelIdeal.Gen.frame m ρ
/-- The reference's frame is its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two idealized programs end with equal results: the kernel's results are the user and item rows of the mean
    table computed on the transposed layout (the walk through its run), the reference's are the same rows of its mean
    table (its generated run), and the two mean tables are one function of the arguments. -/
theorem algebraic : Cert.algebraic_KernelIdeal_ReferenceIdeal := by
  intro m ρ m' ρ' _ hagree
  refine ⟨fun c => Cert.KernelIdeal.KV.users (Cert.KernelIdeal.KV.meanT (Cert.KernelIdeal.Walk.T0 m c)
      (Cert.KernelIdeal.Walk.K1 m c) (Cert.KernelIdeal.Walk.K2 m c) (Cert.KernelIdeal.Walk.K3 m c)),
    fun c => Cert.KernelIdeal.KV.items (Cert.KernelIdeal.KV.meanT (Cert.KernelIdeal.Walk.T0 m c)
      (Cert.KernelIdeal.Walk.K1 m c) (Cert.KernelIdeal.Walk.K2 m c) (Cert.KernelIdeal.Walk.K3 m c)), ?_, ?_⟩
  · exact (θ_run Cert.KernelIdeal.defs _ _).mono
      (fun r h c => ⟨(h c).1.trans (Cert.KernelIdeal.Walk.w12_v67 m ρ c),
        (h c).2.1.trans (Cert.KernelIdeal.Walk.w12_v68 m ρ c), (h c).2.2⟩)
      (Cert.KernelIdeal.KRun.run (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v64_eq, (hagree c).1, (hagree c).2.1, (hagree c).2.2.1, (hagree c).2.2.2]
      exact (Cert.Bridge.users_eq _ _ _ _).symm
    · rw [(h c).2.1, Cert.ReferenceIdeal.Read.val_main_v65_eq, (hagree c).1, (hagree c).2.1, (hagree c).2.2.1, (hagree c).2.2.2]
      exact (Cert.Bridge.items_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
